-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : IVec S32x1x512x512 32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_c_0 : IVec S_ 32 := constantI S_ 32 0#32
  let main_v4 : IVec S32x1x512x512 32 := broadcastInDim S32x1x512x512 ![] bcast_S_S32x1x512x512 main_c_0
  let main_v5 : IVec S32x1x512x512 1 := cmpi .eq main_arg1 main_v4
  let main_c_1 : IVec S_ 32 := constantI S_ 32 1#32
  let main_v6 : IVec S32x1x512x512 32 := broadcastInDim S32x1x512x512 ![] bcast_S_S32x1x512x512 main_c_1
  let main_v7 : IVec S32x1x512x512 1 := cmpi .eq main_arg1 main_v6
  let main_v8 : IVec S32x1x512x512 1 := ori main_v5 main_v7
  let main_c_2 : IVec S_ 1 := constantI S_ 1 1#1
  let main_v9 : IVec S_ 1 := (fun x v => Host.reduce IntOp.andi x v reducesTo_S32x1x512x512_S_d0_1_2_3 h_S_) main_v8 main_c_2
  let main_v10 : IVec S_ 1 := andi main_v3 main_v9
  main_v10
-- ==== Kernel.lean ====
abbrev S32x1x512x512 : Shape := ⟨4, ![32, 1, 512, 512]⟩
abbrev S2x8x128 : Shape := ⟨3, ![2, 8, 128]⟩
abbrev S2x1x512x512 : Shape := ⟨4, ![2, 1, 512, 512]⟩
abbrev S1x8x128 : Shape := ⟨3, ![1, 8, 128]⟩
abbrev S8x128 : Shape := ⟨2, ![8, 128]⟩
abbrev S2x512x512 : Shape := ⟨3, ![2, 512, 512]⟩
abbrev S2x512 : Shape := ⟨2, ![2, 512]⟩
abbrev S2x512x1 : Shape := ⟨3, ![2, 512, 1]⟩
abbrev S2x1 : Shape := ⟨2, ![2, 1]⟩
abbrev S2x1x1 : Shape := ⟨3, ![2, 1, 1]⟩
abbrev S1x1 : Shape := ⟨2, ![1, 1]⟩
abbrev S1x1x1 : Shape := ⟨3, ![1, 1, 1]⟩
abbrev S2x1x4 : Shape := ⟨3, ![2, 1, 4]⟩
abbrev S2x4 : Shape := ⟨2, ![2, 4]⟩
abbrev S_ : Shape := ⟨0, ![]⟩
abbrev S4 : Shape := ⟨1, ![4]⟩
abbrev S1 : Shape := ⟨1, ![1]⟩

abbrev nBuf : Space → Nat
  | .hbm => 32
  | .vmem => 6
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .i32⟩
  | .hbm, ⟨2, _⟩ => ⟨S2x8x128, .f32⟩
  | .hbm, ⟨3, _⟩ => ⟨S2x1x4, .f32⟩
  | .hbm, ⟨4, _⟩ => ⟨S2x4, .f32⟩
  | .hbm, ⟨5, _⟩ => ⟨S_, .f32⟩
  | .hbm, ⟨6, _⟩ => ⟨S4, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S2x1x512x512, .f32⟩
  | .local _ .vmem, ⟨1, _⟩ => ⟨S2x1x512x512, .f32⟩
  | .local _ .vmem, ⟨2, _⟩ => ⟨S2x1x512x512, .i32⟩
  | .local _ .vmem, ⟨3, _⟩ => ⟨S2x1x512x512, .i32⟩
  | .local _ .vmem, ⟨4, _⟩ => ⟨S1x8x128, .f32⟩
  | .local _ .vmem, ⟨5, _⟩ => ⟨S1x8x128, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S2x1x512x512_S2x1x512x512_0_0_0_0 : ∀ a, (![0, 0, 0, 0] : Fin 4 → Nat) a + S2x1x512x512.size a ≤ S2x1x512x512.size a
  h_S2x1x512x512 : 0 < S2x1x512x512.numel
  shapeCasts_S2x1x512x512_S2x512x512 : S2x1x512x512.ShapeCasts S2x512x512
  iota_S2x512x512_d2_w32 : S2x512x512.Iotas .tc 32 [2]
  iota_S2x512x512_d1_w32 : S2x512x512.Iotas .tc 32 [1]
  rotates_S2x512x512_d2 : S2x512x512.Rotates 2 none
  rotates_S2x512x512_d1 : S2x512x512.Rotates 1 none
  reduces_S2x512x512_S2x512 : S2x512x512.Reduces [2] S2x512
  shapeCasts_S2x512_S2x512x1 : S2x512.ShapeCasts S2x512x1
  reduces_S2x512x1_S2x1 : S2x512x1.Reduces [1] S2x1
  shapeCasts_S2x1_S2x1x1 : S2x1.ShapeCasts S2x1x1
  reduces_S2x1x1_S1x1 : S2x1x1.Reduces [0] S1x1
  shapeCasts_S1x1_S1x1x1 : S1x1.ShapeCasts S1x1x1
  inpos_S1x1x1_p0_0_0 : ∀ a, (![0, 0, 0] : Fin 3 → Nat) a < S1x1x1.size a
  iota_S8x128_d1_w32 : S8x128.Iotas .tc 32 [1]
  iota_S8x128_d0_w32 : S8x128.Iotas .tc 32 [0]
  slices_S2x8x128_S2x1x4_0_0_0 : S2x8x128.Slices ![0, 0, 0] S2x1x4
  shapeCasts_S2x1x4_S2x4 : S2x1x4.ShapeCasts S2x4
  reducesTo_S2x4_S4_d0 : S2x4.ReducesTo [0] S4
  h_S_ : 0 < S_.numel
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512x512.size a ≤ S32x1x512x512.size a
  hwx0_0 : ∀ i : grid0.Coords, EltTy.bits .f32 = 32 ∨ (Rect.block (s := S32x1x512x512) S2x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512x512.size a ≤ S32x1x512x512.size a
  hwx0_1 : ∀ i : grid0.Coords, EltTy.bits .i32 = 32 ∨ (Rect.block (s := S32x1x512x512) S2x1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S2x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x512x512 : Shape := ⟨4, ![32, 1, 512, 512]⟩
abbrev S_ : Shape := ⟨0, ![]⟩
abbrev S8388608 : Shape := ⟨1, ![8388608]⟩

abbrev nBuf : Space → Nat
  | .hbm => 66
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .i32⟩
  | .hbm, ⟨2, _⟩ => ⟨S32x1x512x512, .f32⟩
  | .hbm, ⟨3, _⟩ => ⟨S_, .f32⟩
  | .hbm, ⟨4, _⟩ => ⟨S_, .f32⟩
  | .hbm, ⟨5, _⟩ => ⟨S32x1x512x512, .f32⟩
  | .hbm, ⟨6, _⟩ => ⟨S_, .f32⟩
  | .hbm, ⟨7, _⟩ => ⟨S_, .f32⟩
  | .hbm, ⟨8, _⟩ => ⟨S32x1x512x512, .f32⟩
  | .hbm, ⟨9, _⟩ => ⟨S32x1x512x512, .f32⟩
  | .hbm, ⟨10, _⟩ => ⟨S_, .f32⟩
  | .hbm, ⟨11, _⟩ => ⟨S32x1x512x512, .f32⟩
  | .hbm, ⟨12, _⟩ => ⟨S32x1x512x512, .i1⟩
  | .hbm, ⟨13, _⟩ => ⟨S_, .f32⟩
  | .hbm, ⟨14, _⟩ => ⟨S_, .f32⟩
  | .hbm, ⟨15, _⟩ => ⟨S32x1x512x512, .f32⟩
  | .hbm, ⟨16, _⟩ => ⟨S32x1x512x512, .f32⟩
  | .hbm, ⟨17, _⟩ => ⟨S32x1x512x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32x1x512x512, .f32⟩
  | .hbm, ⟨22, _⟩ => ⟨S32x1x512x512, .f32⟩
  | .hbm, ⟨23, _⟩ => ⟨S_, .f32⟩
  | .hbm, ⟨24, _⟩ => ⟨S32x1x512x512, .f32⟩
  | .hbm, ⟨25, _⟩ => ⟨S32x1x512x512, .f32⟩
  | .hbm, ⟨26, _⟩ => ⟨S32x1x512x512, .f32⟩
  | .hbm, ⟨27, _⟩ => ⟨S32x1x512x512, .f32⟩
  | .hbm, ⟨28, _⟩ => ⟨S_, .f32⟩
  | .hbm, ⟨29, _⟩ => ⟨S32x1x512x512, .f32⟩
  | .hbm, ⟨30, _⟩ => ⟨S32x1x512x512, .f32⟩
  | .hbm, ⟨31, _⟩ => ⟨S32x1x512x512, .f32⟩
  | .hbm, ⟨32, _⟩ => ⟨S32x1x512x512, .f32⟩
  | .hbm, ⟨33, _⟩ => ⟨S32x1x512x512, .f32⟩
  | .hbm, ⟨34, _⟩ => ⟨S32x1x512x512, .f32⟩
  | .hbm, ⟨35, _⟩ => ⟨S32x1x512x512, .f32⟩
  | .hbm, ⟨36, _⟩ => ⟨S32x1x512x512, .f32⟩
  | .hbm, ⟨37, _⟩ => ⟨S32x1x512x512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8388608, .f32⟩
  | .hbm, ⟨43, _⟩ => ⟨S8388608, .f32⟩
  | .hbm, ⟨44, _⟩ => ⟨S8388608, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_4 : Ref sig .tc := ⟨.hbm, 18, rfl⟩
abbrev main_cst_5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_6 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_cst_10 : Ref sig .tc := ⟨.hbm, 47, rfl⟩
abbrev main_v27 : Ref sig .tc := ⟨.hbm, 48, rfl⟩
abbrev main_cst_11 : Ref sig .tc := ⟨.hbm, 49, rfl⟩
abbrev main_v28 : Ref sig .tc := ⟨.hbm, 50, rfl⟩
abbrev main_cst_12 : Ref sig .tc := ⟨.hbm, 51, rfl⟩
abbrev main_v29 : Ref sig .tc := ⟨.hbm, 52, rfl⟩
abbrev main_cst_13 : Ref sig .tc := ⟨.hbm, 53, rfl⟩
abbrev main_v30 : Ref sig .tc := ⟨.hbm, 54, rfl⟩
abbrev main_v31 : Ref sig .tc := ⟨.hbm, 55, rfl⟩
abbrev main_cst_14 : Ref sig .tc := ⟨.hbm, 56, rfl⟩
abbrev main_v32 : Ref sig .tc := ⟨.hbm, 57, rfl⟩
abbrev main_v33 : Ref sig .tc := ⟨.hbm, 58, rfl⟩
abbrev main_cst_15 : Ref sig .tc := ⟨.hbm, 59, rfl⟩
abbrev main_v34 : Ref sig .tc := ⟨.hbm, 60, rfl⟩
abbrev main_cst_16 : Ref sig .tc := ⟨.hbm, 61, rfl⟩
abbrev main_v35 : Ref sig .tc := ⟨.hbm, 62, rfl⟩
abbrev main_cst_17 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S32x1x512x512_S32x1x512x512_w1s1p0_0_w1s1p0_0_w3s1p1_1_w3s1p1_1 : S32x1x512x512.ReduceWindows (![1, 1, 3, 3] : Fin 4 → Nat) ![1, 1, 1, 1] ![0, 0, 1, 1] ![0, 0, 1, 1] S32x1x512x512
  h_S_ : 0 < S_.numel
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  shapeCasts_S32x1x512x512_S8388608 : S32x1x512x512.ShapeCasts S8388608
  reducesTo_S8388608_S_d0 : S8388608.ReducesTo [0] S_

variable [Facts₀]

class Facts : Prop extends Facts₀ where

variable [Facts]
-- ==== Proof.Spec.lean ====
/-
  The loss both programs compute, one image element at a time, over the extended reals.

  A prediction p is clipped to [1e-7, 0.99999988]. A target image T (entries 0 or 1) gives each element a boundary
  weight: 3 where the 3×3 maximum of T around the element exceeds the 3×3 minimum, else 1; the window is cut at the
  image's edges. The element's cross-entropy is  −(t·log p + (1 − t)·log(1 + (−p)))  in one program and
  0 − log(p if t > ½ else 1 − p)  in the other; the two agree at t = 0 and at t = 1.

  The 3×3 extremum comes in two arrangements. One folds the nine window positions in row-major order from the
  operation's identity (−∞ for max, +∞ for min), a position outside the image contributing the identity
  (`fold9`). The other makes a pass along each axis in turn, a neighbour fetched by a cyclic shift and replaced by a
  finite fill (∓1e9) at the two ends (`sep9`). They agree on every image whose entries the fill does not beat.
-/
import Idealize.ShloMosaic.PureOps.Ideal.Laws

noncomputable section

namespace Cert.Loss

open Idealize.ShloMosaic

/-- The clip both programs apply to a prediction: min(0.99999988, max(1e-7, p)). -/
def clip (p : EReal) : EReal :=
  min (Ideal.ofBits .f32 0x3F7FFFFE#32) (max (Ideal.ofBits .f32 0x33D6BF95#32) p)

/-- The boundary weight from the dilated value d and the eroded value e: 3 if 0 < d − e, else 1. -/
def wgt (d e : EReal) : EReal :=
  if Ideal.ofBits .f32 0x00000000#32 < d - e then Ideal.ofBits .f32 0x40400000#32 else Ideal.ofBits .f32 0x3F800000#32

/-- The two-logarithm cross-entropy of prediction p against target t. -/
def bceTwo (p t : EReal) : EReal :=
  -(t * Ideal.log (clip p) + (Ideal.ofBits .f32 0x3F800000#32 - t) * Ideal.log1p (-(clip p)))

/-- The one-logarithm cross-entropy: the logarithm of p where t > ½, of 1 − p elsewhere, subtracted from zero. -/
def bceOne (p t : EReal) : EReal :=
  Ideal.ofBits .f32 0x00000000#32
    - Ideal.log (if Ideal.ofBits .f32 0x3F000000#32 < t then clip p else Ideal.ofBits .f32 0x3F800000#32 - clip p)

/-- The 3×3 window of a 512×512 image x at (h, w), padded by one on every side, folded in row-major order from v with f;
    a position in the padding contributes v. -/
def fold9 (f : EReal → EReal → EReal) (v : EReal) (x : ℕ → ℕ → EReal) (h w : ℕ) : EReal :=
  let e : ℕ → ℕ → EReal := fun dh dw =>
    if 1 ≤ h + dh ∧ h + dh - 1 < 512 ∧ 1 ≤ w + dw ∧ w + dw - 1 < 512 then x (h + dh - 1) (w + dw - 1) else v
  f (f (f (f (f (f (f (f (f v (e 0 0)) (e 0 1)) (e 0 2)) (e 1 0)) (e 1 1)) (e 1 2)) (e 2 0)) (e 2 1)) (e 2 2)

/-- One pass along an axis of extent 512: f of the entry before (cyclically; the fill c at position 0), the entry
    after (cyclically; c at position 511) and the entry itself. -/
def pass1 (f : EReal → EReal → EReal) (c : EReal) (y : ℕ → EReal) (k : ℕ) : EReal :=
  f (f (if k = 0 then c else y ((k + 512 - 1) % 512)) (if k = 511 then c else y ((k + 512 - 511) % 512))) (y k)

/-- The separable 3×3 extremum: a pass along the columns' axis, then a pass along the rows' axis. -/
def sep9 (f : EReal → EReal → EReal) (c : EReal) (x : ℕ → ℕ → EReal) (h w : ℕ) : EReal :=
  pass1 f c (fun hh => pass1 f c (fun ww => x hh ww) w) h

/-- One element's weighted cross-entropy, window extrema folded from the infinities, two logarithms. -/
def elemTwo (p : EReal) (T : ℕ → ℕ → EReal) (h w : ℕ) : EReal :=
  bceTwo p (T h w) * wgt (fold9 max (Ideal.ofBits .f32 0xFF800000#32) T h w) (fold9 min (Ideal.ofBits .f32 0x7F800000#32) T h w)

/-- One element's weighted cross-entropy, window extrema by passes with finite fills, one logarithm. -/
def elemOne (p : EReal) (T : ℕ → ℕ → EReal) (h w : ℕ) : EReal :=
  bceOne p (T h w) * wgt (sep9 max (Ideal.ofBits .f32 0xCE6E6B28#32) T h w) (sep9 min (Ideal.ofBits .f32 0x4E6E6B28#32) T h w)

/-- What both programs do with the four totals (weighted cross-entropy, p·t, p, t): the mean cross-entropy over 2²³
    elements, one minus the smoothed Dice quotient, and half of each added. -/
def tail3 (a b c d : EReal) : EReal × EReal × EReal :=
  let bce := Ideal.div a (Ideal.ofBits .f32 0x4B000000#32)
  let dice := Ideal.ofBits .f32 0x3F800000#32
    - Ideal.div (Ideal.ofBits .f32 0x40000000#32 * b + Ideal.ofBits .f32 0x358637BD#32) ((c + d) + Ideal.ofBits .f32 0x358637BD#32)
  (Ideal.ofBits .f32 0x3F000000#32 * bce + Ideal.ofBits .f32 0x3F000000#32 * dice, bce, dice)

end Cert.Loss

end
-- ==== Proof.Images.lean ====
/-
  The arrays the two programs work on, read as images.

  A target array of B images of 512×512 signed 32-bit integers is read, image by image, as a function of two natural
  coordinates into the extended reals: the integer's value inside the image, zero outside. The four totals both
  programs reduce to are the sums, over the 32 images and the 512×512 positions, of the weighted cross-entropy, of
  prediction times target, of the prediction and of the target.
-/
import proofs.«131724_j10642928959652_2_alg».proof.Proof.Spec
import Idealize.ShloMosaic.Lib.ValueIdx

noncomputable section

namespace Cert.Loss

open Idealize.ShloMosaic Idealize.ShloMosaic.ValueIdx

/-- Image b of an integer array [B, 1, 512, 512] as extended reals at natural coordinates (zero outside the image). -/
def timg {B : ℕ} (x1 : (⟨4, ![B, 1, 512, 512]⟩ : Shape).Idx → BitVec 32) (b : Fin B) : ℕ → ℕ → EReal :=
  fun hh ww => if h : hh < 512 ∧ ww < 512 then (((x1 (ix4 b (0 : Fin 1) (⟨hh, h.1⟩ : Fin 512) (⟨ww, h.2⟩ : Fin 512))).toInt : ℝ) : EReal) else 0

theorem timg_apply {B : ℕ} (x1 : (⟨4, ![B, 1, 512, 512]⟩ : Shape).Idx → BitVec 32) (b : Fin B) (h w : Fin 512) :
    timg x1 b h.val w.val = (((x1 (ix4 b (0 : Fin 1) h w)).toInt : ℝ) : EReal) := by
  unfold timg
  rw [dif_pos ⟨h.isLt, w.isLt⟩]

/-- The weighted cross-entropy summed over B images, in the arrangement E of one element's term. -/
def totA {B : ℕ} (E : EReal → (ℕ → ℕ → EReal) → ℕ → ℕ → EReal) (x0 : (⟨4, ![B, 1, 512, 512]⟩ : Shape).Idx → EReal)
    (x1 : (⟨4, ![B, 1, 512, 512]⟩ : Shape).Idx → BitVec 32) : EReal :=
  ∑ b : Fin B, ∑ h : Fin 512, ∑ w : Fin 512, E (x0 (ix4 b (0 : Fin 1) h w)) (timg x1 b) h.val w.val

/-- Prediction times target, summed. -/
def totB {B : ℕ} (x0 : (⟨4, ![B, 1, 512, 512]⟩ : Shape).Idx → EReal) (x1 : (⟨4, ![B, 1, 512, 512]⟩ : Shape).Idx → BitVec 32) : EReal :=
  ∑ b : Fin B, ∑ h : Fin 512, ∑ w : Fin 512, x0 (ix4 b (0 : Fin 1) h w) * timg x1 b h.val w.val

/-- The prediction, summed. -/
def totC {B : ℕ} (x0 : (⟨4, ![B, 1, 512, 512]⟩ : Shape).Idx → EReal) : EReal :=
  ∑ b : Fin B, ∑ h : Fin 512, ∑ w : Fin 512, x0 (ix4 b (0 : Fin 1) h w)

/-- The target, summed. -/
def totD {B : ℕ} (x1 : (⟨4, ![B, 1, 512, 512]⟩ : Shape).Idx → BitVec 32) : EReal :=
  ∑ b : Fin B, ∑ h : Fin 512, ∑ w : Fin 512, timg x1 b h.val w.val

end Cert.Loss

end
-- ==== Proof.RefWindow.lean ====
/-
  The reference's 3×3 window extrema and its weighted cross-entropy, read at one element.

  A reduce-window with window 1×1×3×3, stride one and one position of padding on each side of the two image axes folds,
  at element (b, 0, h, w), the nine positions (h + dh − 1, w + dw − 1), dh, dw ∈ {0, 1, 2}, in row-major order from the
  initial value; a position outside the image contributes the initial value. That is `fold9` of the image b of the
  operand. With it every operation of the reference up to the product of the cross-entropy and the boundary weight
  reads at (b, 0, h, w) as `elemTwo` of the prediction there and the target's image b.
-/
import proofs.«131724_j10642928959652_2_alg».proof.Proof.RefRead
import proofs.«131724_j10642928959652_2_alg».proof.Proof.Images
import Idealize.ShloMosaic.Lib.ValueIdx
import Idealize.ShloMosaic.Lib.Pipeline.Value
import Idealize.ShloMosaic.PureOps.Ideal.Laws

noncomputable section

namespace Cert.Loss

open Cert.ReferenceIdeal Cert.ReferenceIdeal.ReadP Idealize.ShloMosaic Idealize.ShloMosaic.ValueIdx

/-- The window's shape: one position on the two leading axes, three on each image axis. -/
abbrev W9 : Shape := ⟨4, ![1, 1, 3, 3]⟩

/-- Window position n of nine, in row-major order, sits at (0, 0, n / 3, n % 3). -/
theorem W9_tab : ∀ n : Fin W9.numel, (W9.rowMajor.symm n 0).val = 0 ∧ (W9.rowMajor.symm n 1).val = 0
    ∧ (W9.rowMajor.symm n 2).val = n.val / 3 ∧ (W9.rowMajor.symm n 3).val = n.val % 3 := by decide

/-- A left fold over the nine positions, written out. -/
theorem foldl_finRange9 {α : Type} {m : ℕ} (hm : m = 9) (g : α → ℕ → α) (v : α) :
    List.foldl (fun r (n : Fin m) => g r n.val) v (List.finRange m)
      = g (g (g (g (g (g (g (g (g v 0) 1) 2) 3) 4) 5) 6) 7) 8 := by
  subst hm; rfl

/-- Image b of an array [32, 1, 512, 512] at natural coordinates (zero outside the image). -/
def img (x : S32x1x512x512.Idx → EReal) (b : Fin 32) : ℕ → ℕ → EReal :=
  fun hh ww => if hq : hh < 512 ∧ ww < 512 then x (ix4 b (0 : Fin 1) ⟨hh, hq.1⟩ ⟨ww, hq.2⟩) else 0

/-- One window position: the padded read is the image's entry inside the image, the initial value in the padding. -/
theorem window_step (x : S32x1x512x512.Idx → EReal) (v0 : EReal) (b : Fin 32) (h w : Fin 512) (dh dw : ℕ)
    (p : Fin 4 → ℕ) (hp0 : p 0 = b.val) (hp1 : p 1 = 0) (hp2 : p 2 = h.val + dh) (hp3 : p 3 = w.val + dw) :
    (if hin : ∀ a : Fin 4, (![0, 0, 1, 1] : Fin 4 → ℕ) a ≤ p a ∧ p a - (![0, 0, 1, 1] : Fin 4 → ℕ) a < S32x1x512x512.size a
      then x (fun a => ⟨p a - (![0, 0, 1, 1] : Fin 4 → ℕ) a, (hin a).2⟩) else v0)
      = (if 1 ≤ h.val + dh ∧ h.val + dh - 1 < 512 ∧ 1 ≤ w.val + dw ∧ w.val + dw - 1 < 512
          then img x b (h.val + dh - 1) (w.val + dw - 1) else v0) := by
  have hb : b.val < 32 := b.isLt
  by_cases c : 1 ≤ h.val + dh ∧ h.val + dh - 1 < 512 ∧ 1 ≤ w.val + dw ∧ w.val + dw - 1 < 512
  · have hin : ∀ a : Fin 4, (![0, 0, 1, 1] : Fin 4 → ℕ) a ≤ p a ∧ p a - (![0, 0, 1, 1] : Fin 4 → ℕ) a < S32x1x512x512.size a := by
      intro a
      match a with
      | ⟨0, _⟩ => exact ⟨Nat.zero_le _, by show p 0 - 0 < 32; omega⟩
      | ⟨1, _⟩ => exact ⟨Nat.zero_le _, by show p 1 - 0 < 1; omega⟩
      | ⟨2, _⟩ => exact ⟨by show 1 ≤ p 2; omega, by show p 2 - 1 < 512; omega⟩
      | ⟨3, _⟩ => exact ⟨by show 1 ≤ p 3; omega, by show p 3 - 1 < 512; omega⟩
    rw [dif_pos hin, if_pos c]
    unfold img
    rw [dif_pos ⟨c.2.1, c.2.2.2⟩]
    refine congrArg x ?_
    funext a
    refine Fin.ext ?_
    match a with
    | ⟨0, _⟩ => show p 0 - 0 = b.val; omega
    | ⟨1, _⟩ => show p 1 - 0 = 0; omega
    | ⟨2, _⟩ => show p 2 - 1 = h.val + dh - 1; omega
    | ⟨3, _⟩ => show p 3 - 1 = w.val + dw - 1; omega
  · have hin : ¬ ∀ a : Fin 4, (![0, 0, 1, 1] : Fin 4 → ℕ) a ≤ p a ∧ p a - (![0, 0, 1, 1] : Fin 4 → ℕ) a < S32x1x512x512.size a := by
      intro hall
      apply c
      have h2 := hall 2
      have h3 := hall 3
      have h2a : 1 ≤ p 2 := h2.1
      have h2b : p 2 - 1 < 512 := h2.2
      have h3a : 1 ≤ p 3 := h3.1
      have h3b : p 3 - 1 < 512 := h3.2
      omega
    rw [dif_neg hin, if_neg c]

/-- The 3×3 window with one position of padding on each side of the two image axes, read at an index: the nine positions
    folded in row-major order from the initial value. -/
theorem reduceWindow_apply (f : EReal → EReal → EReal) (x : S32x1x512x512.Idx → EReal) (v : S_.Idx → EReal)
    (hRW : S32x1x512x512.ReduceWindows (![1, 1, 3, 3] : Fin 4 → Nat) ![1, 1, 1, 1] ![0, 0, 1, 1] ![0, 0, 1, 1] S32x1x512x512)
    (hS : 0 < S_.numel) (b : Fin 32) (h w : Fin 512) :
    Host.reduceWindow f ![1, 1, 3, 3] ![1, 1, 1, 1] ![0, 0, 1, 1] ![0, 0, 1, 1] x v hRW hS (ix4 b (0 : Fin 1) h w)
      = fold9 f (v ix0) (img x b) h.val w.val := by
  have hv : v (Shape.Idx.first hS) = v ix0 := congrArg v (funext fun a => a.elim0)
  unfold Host.reduceWindow
  simp only []
  rw [hv]
  refine (List.foldl_ext _ (fun r (n : Fin W9.numel) => f r
      (if 1 ≤ h.val + n.val / 3 ∧ h.val + n.val / 3 - 1 < 512 ∧ 1 ≤ w.val + n.val % 3 ∧ w.val + n.val % 3 - 1 < 512
        then img x b (h.val + n.val / 3 - 1) (w.val + n.val % 3 - 1) else v ix0)) _ ?_).trans ?_
  · intro r n _
    refine congrArg (f r) ?_
    obtain ⟨t0, t1, t2, t3⟩ := W9_tab n
    exact window_step x (v ix0) b h w (n.val / 3) (n.val % 3)
      (fun a => ((ix4 b (0 : Fin 1) h w) (Fin.cast hRW.1.symm a)).val * (![1, 1, 1, 1] : Fin 4 → ℕ) a + (W9.rowMajor.symm n a).val)
      (by show b.val * 1 + (W9.rowMajor.symm n 0).val = b.val; omega)
      (by show 0 * 1 + (W9.rowMajor.symm n 1).val = 0; omega)
      (by show h.val * 1 + (W9.rowMajor.symm n 2).val = h.val + n.val / 3; omega)
      (by show w.val * 1 + (W9.rowMajor.symm n 3).val = w.val + n.val % 3; omega)
  · refine (foldl_finRange9 (by decide) (fun r k => f r
      (if 1 ≤ h.val + k / 3 ∧ h.val + k / 3 - 1 < 512 ∧ 1 ≤ w.val + k % 3 ∧ w.val + k % 3 - 1 < 512
        then img x b (h.val + k / 3 - 1) (w.val + k % 3 - 1) else v ix0)) (v ix0)).trans ?_
    rfl

/-- The converted target array's image is the target's image. -/
theorem img_v0 (x1 : (⟨S32x1x512x512, .i32⟩ : BufTy).Contents (Elt Ideal)) (b : Fin 32) :
    img (val_main_v0 (F := Ideal) x1) b = timg x1 b := rfl

/-- The dilated target at (b, 0, h, w): the 3×3 maximum folded from −∞. -/
theorem v2_apply (x1 : (⟨S32x1x512x512, .i32⟩ : BufTy).Contents (Elt Ideal)) (b : Fin 32) (h w : Fin 512) :
    val_main_v2 (F := Ideal) x1 (ix4 b (0 : Fin 1) h w)
      = fold9 max (Ideal.ofBits .f32 0xFF800000#32) (timg x1 b) h.val w.val := by
  unfold val_main_v2
  refine (reduceWindow_apply _ _ _ _ _ b h w).trans ?_
  rw [img_v0, val_main_v1_apply, val_main_cst_apply]
  rfl

/-- The eroded target at (b, 0, h, w): the 3×3 minimum folded from +∞. -/
theorem v4_apply (x1 : (⟨S32x1x512x512, .i32⟩ : BufTy).Contents (Elt Ideal)) (b : Fin 32) (h w : Fin 512) :
    val_main_v4 (F := Ideal) x1 (ix4 b (0 : Fin 1) h w)
      = fold9 min (Ideal.ofBits .f32 0x7F800000#32) (timg x1 b) h.val w.val := by
  unfold val_main_v4
  refine (reduceWindow_apply _ _ _ _ _ b h w).trans ?_
  rw [img_v0, val_main_v3_apply, val_main_cst_0_apply]
  rfl

/-- The weighted cross-entropy map at (b, 0, h, w) is `elemTwo` of the prediction there and the target's image. -/
theorem v20_apply (x0 : (⟨S32x1x512x512, .f32⟩ : BufTy).Contents (Elt Ideal)) (x1 : (⟨S32x1x512x512, .i32⟩ : BufTy).Contents (Elt Ideal))
    (b : Fin 32) (h w : Fin 512) :
    val_main_v20 (F := Ideal) x0 x1 (ix4 b (0 : Fin 1) h w)
      = elemTwo (x0 (ix4 b (0 : Fin 1) h w)) (timg x1 b) h.val w.val := by
  simp only [val_main_v20_apply, val_main_v18_apply, val_main_v19_apply, val_main_v17_apply, val_main_v11_apply, val_main_v16_apply,
    val_main_v13_apply, val_main_v15_apply, val_main_v14_apply, val_main_v10_apply, val_main_v9_apply, val_main_call1_v4_apply,
    val_main_call1_v3_apply, val_main_call1_v2_apply, val_main_call1_v1_apply, val_main_call1_v0_apply, val_main_v12_apply,
    val_main_v8_apply, val_main_v7_apply, val_main_v5_apply, val_main_v6_apply, val_main_call0_v0_apply, val_main_call0_v1_apply,
    val_main_cst_1_apply, val_main_cst_2_apply, val_main_cst_3_apply, val_main_cst_4_apply, val_main_cst_5_apply, val_main_cst_6_apply,
    val_main_v0_apply, v2_apply, v4_apply]
  have hsel : ∀ (c A B : EReal), Scalar.select (Ideal.cmp .ogt c (Ideal.ofBits .f32 0x00000000#32)) A B
      = if Ideal.ofBits .f32 0x00000000#32 < c then A else B := by
    intro c A B
    by_cases hc : Ideal.ofBits .f32 0x00000000#32 < c
    · rw [if_pos hc]
      show (if BitVec.ofBool (decide (Ideal.ofBits .f32 0x00000000#32 < c)) = 1#1 then A else B) = A
      rw [decide_eq_true hc]; rfl
    · rw [if_neg hc]
      show (if BitVec.ofBool (decide (Ideal.ofBits .f32 0x00000000#32 < c)) = 1#1 then A else B) = B
      rw [decide_eq_false hc]; rfl
  unfold elemTwo bceTwo wgt clip
  rw [timg_apply, ← hsel]
  rfl

end Cert.Loss

end
-- ==== Proof.RefTotals.lean ====
/-
  The reference's three results as functions of four totals.

  The reference sums the weighted cross-entropy map over the whole array [32, 1, 512, 512], and sums the prediction, the
  target and their product over the arrays flattened to 2²³ entries. A sum over the array is the triple sum over images,
  rows and columns (the unit axis carries no choice), and the flattening is a bijection of indices, so the four sums are
  the totals `totA elemTwo`, `totB`, `totC`, `totD`; each starts from the initial value zero. The scalar operations
  after the sums are `tail3` of the four totals.
-/
import proofs.«131724_j10642928959652_2_alg».proof.Proof.RefRead
import proofs.«131724_j10642928959652_2_alg».proof.Proof.Images
import proofs.«131724_j10642928959652_2_alg».proof.Proof.RefWindow
import Idealize.ShloMosaic.Lib.ValueIdx
import Idealize.ShloMosaic.Lib.Pipeline.Value
import Idealize.ShloMosaic.PureOps.Ideal.Laws

noncomputable section

namespace Cert.Loss

open Cert.ReferenceIdeal Cert.ReferenceIdeal.ReadP Idealize.ShloMosaic Idealize.ShloMosaic.ValueIdx

/-- The array's indices are the triples (image, row, column): the unit axis carries no choice. -/
def idxEquiv4 : S32x1x512x512.Idx ≃ Fin 32 × Fin 512 × Fin 512 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over the array is the triple sum over images, rows and columns. -/
theorem sum_idx4 {M : Type*} [AddCommMonoid M] (f : S32x1x512x512.Idx → M) :
    ∑ i, f i = ∑ b : Fin 32, ∑ h : Fin 512, ∑ w : Fin 512, f (ix4 b (0 : Fin 1) h w) := by
  rw [← Equiv.sum_comp idxEquiv4.symm f, Fintype.sum_prod_type]
  refine Finset.sum_congr rfl fun b _ => ?_
  rw [Fintype.sum_prod_type]
  rfl

/-- The flattened prediction sums to the prediction's sum: the reshape is a bijection of indices. -/
theorem sum_v23 (x0 : (⟨S32x1x512x512, .f32⟩ : BufTy).Contents (Elt Ideal)) :
    ∑ j : S8388608.Idx, val_main_v23 (F := Ideal) x0 j = ∑ i : S32x1x512x512.Idx, x0 i := by
  show ∑ j : S8388608.Idx, x0 (Shape.reshapeEquiv _ j) = _
  exact Equiv.sum_comp (Shape.reshapeEquiv _) x0

/-- The flattened target sums to the converted target's sum. -/
theorem sum_v24 (x1 : (⟨S32x1x512x512, .i32⟩ : BufTy).Contents (Elt Ideal)) :
    ∑ j : S8388608.Idx, val_main_v24 (F := Ideal) x1 j = ∑ i : S32x1x512x512.Idx, val_main_v0 (F := Ideal) x1 i := by
  show ∑ j : S8388608.Idx, val_main_v0 (F := Ideal) x1 (Shape.reshapeEquiv _ j) = _
  exact Equiv.sum_comp (Shape.reshapeEquiv _) (val_main_v0 (F := Ideal) x1)

/-- The flattened product sums to the sum of the products. -/
theorem sum_v25 (x0 : (⟨S32x1x512x512, .f32⟩ : BufTy).Contents (Elt Ideal)) (x1 : (⟨S32x1x512x512, .i32⟩ : BufTy).Contents (Elt Ideal)) :
    ∑ j : S8388608.Idx, val_main_v25 (F := Ideal) x0 x1 j
      = ∑ i : S32x1x512x512.Idx, x0 i * val_main_v0 (F := Ideal) x1 i := by
  show ∑ j : S8388608.Idx, (fun i => x0 i * val_main_v0 (F := Ideal) x1 i) (Shape.reshapeEquiv _ j) = _
  exact Equiv.sum_comp (Shape.reshapeEquiv _) (fun i => x0 i * val_main_v0 (F := Ideal) x1 i)

/-- The cross-entropy total: the reference's first sum is the triple sum of `elemTwo`. -/
theorem ref_v21 (x0 : (⟨S32x1x512x512, .f32⟩ : BufTy).Contents (Elt Ideal)) (x1 : (⟨S32x1x512x512, .i32⟩ : BufTy).Contents (Elt Ideal)) (i : S_.Idx) :
    val_main_v21 (F := Ideal) x0 x1 i = totA elemTwo x0 x1 := by
  rw [val_main_v21_apply, val_main_cst_7_apply, Ideal.ofBits_def, Ideal.ofBits_zero_f32, zero_add, sum_idx4]
  unfold totA
  exact Finset.sum_congr rfl fun b _ => Finset.sum_congr rfl fun h _ => Finset.sum_congr rfl fun w _ =>
    v20_apply x0 x1 b h w

/-- The sum of prediction times target over the flattened arrays. -/
theorem ref_v26 (x0 : (⟨S32x1x512x512, .f32⟩ : BufTy).Contents (Elt Ideal)) (x1 : (⟨S32x1x512x512, .i32⟩ : BufTy).Contents (Elt Ideal)) (i : S_.Idx) :
    val_main_v26 (F := Ideal) x0 x1 i = totB x0 x1 := by
  rw [val_main_v26_apply, val_main_cst_9_apply, Ideal.ofBits_def, Ideal.ofBits_zero_f32, zero_add, sum_v25, sum_idx4]
  unfold totB
  refine Finset.sum_congr rfl fun b _ => Finset.sum_congr rfl fun h _ => Finset.sum_congr rfl fun w _ => ?_
  rw [timg_apply]
  rfl

/-- The sum of the flattened prediction. -/
theorem ref_v29 (x0 : (⟨S32x1x512x512, .f32⟩ : BufTy).Contents (Elt Ideal)) (i : S_.Idx) :
    val_main_v29 (F := Ideal) x0 i = totC x0 := by
  rw [val_main_v29_apply, val_main_cst_12_apply, Ideal.ofBits_def, Ideal.ofBits_zero_f32, zero_add, sum_v23, sum_idx4]
  rfl

/-- The sum of the flattened target. -/
theorem ref_v30 (x1 : (⟨S32x1x512x512, .i32⟩ : BufTy).Contents (Elt Ideal)) (i : S_.Idx) :
    val_main_v30 (F := Ideal) x1 i = totD x1 := by
  rw [val_main_v30_apply, val_main_cst_13_apply, Ideal.ofBits_def, Ideal.ofBits_zero_f32, zero_add, sum_v24, sum_idx4]
  unfold totD
  refine Finset.sum_congr rfl fun b _ => Finset.sum_congr rfl fun h _ => Finset.sum_congr rfl fun w _ => ?_
  rw [timg_apply]
  rfl

/-- The reference's second result: the mean cross-entropy. -/
theorem ref_v22 (x0 : (⟨S32x1x512x512, .f32⟩ : BufTy).Contents (Elt Ideal)) (x1 : (⟨S32x1x512x512, .i32⟩ : BufTy).Contents (Elt Ideal)) (i : S_.Idx) :
    val_main_v22 (F := Ideal) x0 x1 i = (tail3 (totA elemTwo x0 x1) (totB x0 x1) (totC x0) (totD x1)).2.1 := by
  rw [val_main_v22_apply, ref_v21, val_main_cst_8_apply]
  rfl

/-- The reference's third result: one minus the smoothed Dice quotient. -/
theorem ref_v34 (x0 : (⟨S32x1x512x512, .f32⟩ : BufTy).Contents (Elt Ideal)) (x1 : (⟨S32x1x512x512, .i32⟩ : BufTy).Contents (Elt Ideal)) (i : S_.Idx) :
    val_main_v34 (F := Ideal) x0 x1 i = (tail3 (totA elemTwo x0 x1) (totB x0 x1) (totC x0) (totD x1)).2.2 := by
  rw [val_main_v34_apply, val_main_v33_apply, val_main_v28_apply, val_main_v27_apply, val_main_v32_apply, val_main_v31_apply,
    ref_v26, ref_v29, ref_v30, val_main_cst_15_apply, val_main_cst_10_apply, val_main_cst_11_apply, val_main_cst_14_apply]
  rfl

/-- The reference's first result: half the mean cross-entropy plus half the Dice term. -/
theorem ref_v37 (x0 : (⟨S32x1x512x512, .f32⟩ : BufTy).Contents (Elt Ideal)) (x1 : (⟨S32x1x512x512, .i32⟩ : BufTy).Contents (Elt Ideal)) (i : S_.Idx) :
    val_main_v37 (F := Ideal) x0 x1 i = (tail3 (totA elemTwo x0 x1) (totB x0 x1) (totC x0) (totD x1)).1 := by
  rw [val_main_v37_apply, val_main_v35_apply, val_main_v36_apply, ref_v22, ref_v34, val_main_cst_16_apply, val_main_cst_17_apply]
  rfl

end Cert.Loss

end
-- ==== Proof.RefValue.lean ====
/-
  The reference's run, read: its three results are the shared tail of the four totals over the whole arrays, the
  weighted cross-entropy in the arrangement that folds the nine window positions from the infinities and takes two
  logarithms.
-/
import proofs.«131724_j10642928959652_2_alg».proof.Proof.RefTotals

noncomputable section

open Idealize.ShloMosaic Idealize.ShloMosaic.TcCoe Idealize.SL.Sem

namespace Cert.ReferenceIdeal.RefValue

open Cert.ReferenceIdeal Cert.Loss

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v37) = (fun _ => (tail3 (totA elemTwo (m ((c : Thread nD τ).loc main_arg0) : S32x1x512x512.Idx → EReal) (m ((c : Thread nD τ).loc main_arg1) : S32x1x512x512.Idx → BitVec 32)) (totB (m ((c : Thread nD τ).loc main_arg0) : S32x1x512x512.Idx → EReal) (m ((c : Thread nD τ).loc main_arg1) : S32x1x512x512.Idx → BitVec 32)) (totC (m ((c : Thread nD τ).loc main_arg0) : S32x1x512x512.Idx → EReal)) (totD (m ((c : Thread nD τ).loc main_arg1) : S32x1x512x512.Idx → BitVec 32))).1)
      ∧ r.2.mem ((c : Thread nD τ).loc main_v22) = (fun _ => (tail3 (totA elemTwo (m ((c : Thread nD τ).loc main_arg0) : S32x1x512x512.Idx → EReal) (m ((c : Thread nD τ).loc main_arg1) : S32x1x512x512.Idx → BitVec 32)) (totB (m ((c : Thread nD τ).loc main_arg0) : S32x1x512x512.Idx → EReal) (m ((c : Thread nD τ).loc main_arg1) : S32x1x512x512.Idx → BitVec 32)) (totC (m ((c : Thread nD τ).loc main_arg0) : S32x1x512x512.Idx → EReal)) (totD (m ((c : Thread nD τ).loc main_arg1) : S32x1x512x512.Idx → BitVec 32))).2.1)
      ∧ r.2.mem ((c : Thread nD τ).loc main_v34) = (fun _ => (tail3 (totA elemTwo (m ((c : Thread nD τ).loc main_arg0) : S32x1x512x512.Idx → EReal) (m ((c : Thread nD τ).loc main_arg1) : S32x1x512x512.Idx → BitVec 32)) (totB (m ((c : Thread nD τ).loc main_arg0) : S32x1x512x512.Idx → EReal) (m ((c : Thread nD τ).loc main_arg1) : S32x1x512x512.Idx → BitVec 32)) (totC (m ((c : Thread nD τ).loc main_arg0) : S32x1x512x512.Idx → EReal)) (totD (m ((c : Thread nD τ).loc main_arg1) : S32x1x512x512.Idx → BitVec 32))).2.2)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨h37, h22, h34, ha0, ha1⟩ := h c
    refine ⟨h37.trans ?_, h22.trans ?_, h34.trans ?_, ha0, ha1⟩
    · exact (ReadP.val_main_v37_eq _ _).trans (funext fun i => ref_v37 _ _ i)
    · exact (ReadP.val_main_v22_eq _ _).trans (funext fun i => ref_v22 _ _ i)
    · exact (ReadP.val_main_v34_eq _ _).trans (funext fun i => ref_v34 _ _ i))
    (ValueP.run (F := Ideal) m ρ)

end Cert.ReferenceIdeal.RefValue

end
-- ==== Proof.KerOut.lean ====
/-
  What one grid point leaves in the accumulator block, and what the 16 points leave together.

  At every grid point the kernel's body adds to the [1, 8, 128] accumulator block a tile that is zero except at
  (0, 0, k), k < 4, where it holds the point's four partial sums; at the first of the eight points that share an
  accumulator block the block is first set to zero. `stepOut` is that step as a function of the point's two input
  blocks and of the block's previous contents; the two cases of the body's run are this step from the zero block
  and from the previous point's block.
-/
import proofs.«131724_j10642928959652_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The point's partial sum of the weighted cross-entropy, from its two input blocks. -/
def sumA (x0 : Vec F S2x1x512x512 .f32) (x1 : Vec F S2x1x512x512 .i32) : F .f32 :=
  k0_pay13 (k0_pay4 x1) (k0_pay5 x0) k0_pay6 k0_pay7 k0_pay8 k0_pay9 (k0_pay10 x1) (k0_pay11 x1) (k0_pay12 x1)

/-- One grid point's step on the accumulator block xo: xo plus the tile of the point's four partial sums. -/
def stepOut (x0 : Vec F S2x1x512x512 .f32) (x1 : Vec F S2x1x512x512 .i32) (xo : Vec F S1x8x128 .f32) : Vec F S1x8x128 .f32 :=
  k0_pay1 (k0_pay14 (k0_pay4 x1)) (iota .tc S8x128 32 [1] iota_S8x128_d1_w32) k0_pay15
    (k0_pay16 (k0_pay3 x0) (k0_pay4 x1) (sumA x0 x1)) k0_pay17 (k0_pay18 (k0_pay3 x0)) k0_pay19 xo

/-- A point that does not start an accumulator block steps from what the point before left. -/
theorem out_B (c : Dev nD) (i : grid0.Coords) (arg2 : Memref sig .tc .vmem S2x1x512x512 .f32) (harg2 : arg2.IsWhole) (arg3 : Memref sig .tc .vmem S2x1x512x512 .i32) (harg3 : arg3.IsWhole) (arg4 : Memref sig .tc .vmem S1x8x128 .f32) (harg4 : arg4.IsWhole) (hc0 : ¬cond0_0 i)
    (x0 : Vec F S2x1x512x512 .f32) (x1 : Vec F S2x1x512x512 .i32) (xo2 : Vec F S1x8x128 .f32) :
    out0_B_2 c i arg2 harg2 arg3 harg3 arg4 harg4 hc0 x0 x1 xo2 = stepOut x0 x1 xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz3]
  unfold stepOut sumA
  simp only [View.readAt_eq_ld, harg2.read_unread, harg3.read_unread, harg4.read_unread, View.ld_unit_zero (S := S2x1x512x512) hz4,
    View.ld_unit_zero (S := S1x8x128) hz3]

/-- A point that starts an accumulator block steps from the zero block. -/
theorem out_A (c : Dev nD) (i : grid0.Coords) (arg2 : Memref sig .tc .vmem S2x1x512x512 .f32) (harg2 : arg2.IsWhole) (arg3 : Memref sig .tc .vmem S2x1x512x512 .i32) (harg3 : arg3.IsWhole) (arg4 : Memref sig .tc .vmem S1x8x128 .f32) (harg4 : arg4.IsWhole) (hc0 : cond0_0 i)
    (x0 : Vec F S2x1x512x512 .f32) (x1 : Vec F S2x1x512x512 .i32) :
    out0_A_2 c i arg2 harg2 arg3 harg3 arg4 harg4 hc0 x0 x1 = stepOut x0 x1 k0_pay2 := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x8x128) hz3, View.readCov_unit_zero (S := S1x8x128) _ hz3]
  unfold stepOut sumA
  simp only [View.readAt_eq_ld, harg2.read_unread, harg3.read_unread, View.ld_unit_zero (S := S2x1x512x512) hz4]

end Cert.KernelIdeal.KValue

end
-- ==== Proof.KerArr.lean ====
/-
  The accumulator array after the 16 grid points.

  The output array [2, 8, 128] is written back twice, block g after the eighth point of its group (points 7 and 15);
  the two blocks tile it, so after the run it holds, in block g, what point 8g + 7 left in the accumulator block.
-/
import proofs.«131724_j10642928959652_2_alg».proof.Proof.KerOut

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- The printed index maps over the grid: the accumulator's block index is the point's group, an input's block index the
    point's number. -/
theorem idx_facts : ∀ t : Fin cfg0.N, win0_2.index t (0 : Fin 3) = t.val / 8 ∧ win0_2.index t (1 : Fin 3) = 0 ∧ win0_2.index t (2 : Fin 3) = 0
    ∧ win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

theorem lt_N (n : ℕ) (h : n < 16) : n < cfg0.N := by rw [show cfg0.N = 16 from N_0]; exact h

theorem N_lt (t : Fin cfg0.N) : t.val < 16 := lt_of_lt_of_eq t.isLt N_0

/-- The image that row j of point t's input blocks is: image 2t + j of the 32. -/
def imgIx (t : Fin cfg0.N) (j : Fin 2) : Fin 32 := ⟨2 * t.val + j.val, by have := N_lt t; omega⟩

/-- An index of the array read inside its block. -/
def inBlk (i : S2x8x128.Idx) : S1x8x128.Idx := fun a => match a with
  | ⟨0, _⟩ => (⟨0, by decide⟩ : Fin 1)
  | ⟨1, _⟩ => i 1
  | ⟨2, _⟩ => i 2

/-- What the array ends holding: block 0 what point 7 left, block 1 what point 15 left. -/
def finalOut (c : Dev nD) : S2x8x128.Idx → F .f32 := fun i =>
  if (i 0).val = 0 then outsAt0 m c 7 (lt_N 7 (by decide)) (inBlk i) else outsAt0 m c 15 (lt_N 15 (by decide)) (inBlk i)

/-- What a flushing point writes back is its block of `finalOut`. -/
theorem flushed_eq (c : Dev nD) (t : Fin cfg0.N) (hf : (cfg0.win 2).flush t = true) :
    (dats m 0 c).flushed 2 t = ((cfg0.win 2).blk t).view.read (Elt F) (finalOut m c) := by
  have hN : cfg0.N = 16 := N_0
  have h7 : t.val % 8 = 7 := (flush0_2 t).mp hf
  obtain ⟨e0, e1, e2, -⟩ := idx_facts t
  show (cfg0.win 2).cut (grid0.coords t) ((dats m 0 c).after 2 t) = _
  rw [after0_2]
  funext y
  rw [View.read_apply]
  have hy0 : (y 0).val < 1 := (y 0).isLt
  have hy1 : (y 1).val < 8 := (y 1).isLt
  have hy2 : (y 2).val < 128 := (y 2).isLt
  have hemb0 : ((((cfg0.win 2).blk t).view.emb y) 0).val = t.val / 8 := by
    show win0_2.index t (0 : Fin 3) * 1 + 1 * (y 0).val = _
    rw [e0]; omega
  have hin : (cfg0.win 2).xinj (grid0.coords t) y = inBlk (((cfg0.win 2).blk t).view.emb y) := by
    funext a; apply Fin.ext
    match a with
    | ⟨0, _⟩ => show (y 0).val = 0; omega
    | ⟨1, _⟩ => show (y 1).val = win0_2.index t (1 : Fin 3) * 8 + 1 * (y 1).val; rw [e1]; omega
    | ⟨2, _⟩ => show (y 2).val = win0_2.index t (2 : Fin 3) * 128 + 1 * (y 2).val; rw [e2]; omega
  show outsAt0 m c t.val t.isLt ((cfg0.win 2).xinj (grid0.coords t) y)
    = if ((((cfg0.win 2).blk t).view.emb y) 0).val = 0 then outsAt0 m c 7 (lt_N 7 (by decide)) (inBlk (((cfg0.win 2).blk t).view.emb y))
      else outsAt0 m c 15 (lt_N 15 (by decide)) (inBlk (((cfg0.win 2).blk t).view.emb y))
  rw [hin, hemb0]
  generalize inBlk (((cfg0.win 2).blk t).view.emb y) = z
  have ht : t.val < 16 := lt_of_lt_of_eq t.isLt hN
  have key : ∀ (n : ℕ) (hn : n < cfg0.N), t.val = n → outsAt0 m c t.val t.isLt z = outsAt0 m c n hn z := by
    intro n hn e; subst e; rfl
  by_cases h : t.val / 8 = 0
  · rw [if_pos h]
    exact key 7 _ (by omega)
  · rw [if_neg h]
    exact key 15 _ (by omega)

/-- An index of the array is in point t's block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- The two written-back blocks tile the array, so it ends holding `finalOut`. -/
theorem final_arr (c : Dev nD) : (dats m 0 c).arrAt 2 cfg0.N = finalOut m c :=
  (dats m 0 c).arrAt_eq_of_cover 2 (finalOut m c) (flushed_eq m c) fun i => by
    have hi0 : (i 0).val < 2 := (i 0).isLt
    have hi1 : (i 1).val < 8 := (i 1).isLt
    have hi2 : (i 2).val < 128 := (i 2).isLt
    have hlt : 8 * (i 0).val + 7 < 16 := by omega
    refine ⟨⟨8 * (i 0).val + 7, lt_N _ hlt⟩, (flush0_2 _).mpr (by show (8 * (i 0).val + 7) % 8 = 7; omega), ?_⟩
    rw [mem_blk]
    obtain ⟨e0, e1, e2, -⟩ := idx_facts ⟨8 * (i 0).val + 7, lt_N _ hlt⟩
    have e0' : win0_2.index ⟨8 * (i 0).val + 7, lt_N _ hlt⟩ (0 : Fin 3) = (i 0).val := by rw [e0]; show (8 * (i 0).val + 7) / 8 = _; omega
    intro a
    match a with
    | ⟨0, _⟩ => show win0_2.index _ (0 : Fin 3) * 1 ≤ (i 0).val ∧ (i 0).val < win0_2.index _ (0 : Fin 3) * 1 + 1; rw [e0']; omega
    | ⟨1, _⟩ => show win0_2.index _ (1 : Fin 3) * 8 ≤ (i 1).val ∧ (i 1).val < win0_2.index _ (1 : Fin 3) * 8 + 8; rw [e1]; omega
    | ⟨2, _⟩ => show win0_2.index _ (2 : Fin 3) * 128 ≤ (i 2).val ∧ (i 2).val < win0_2.index _ (2 : Fin 3) * 128 + 128; rw [e2]; omega

end Cert.KernelIdeal.KValue

end
-- ==== Proof.KerSum3.lean ====
/-
  The kernel's total of a [2, 512, 512] vector.

  The kernel sums such a vector in three steps, over the last, the middle and the first axis in turn, putting a
  trailing unit axis back after each step and taking the one remaining entry out at the end. Each step is a finite
  sum over one coordinate, and each cast reads the same entry under a longer index, so the whole is the sum over the
  three coordinates.
-/
import proofs.«131724_j10642928959652_2_alg».proof.Proof.KerOut
import proofs.«131724_j10642928959652_2_alg».proof.Proof.Images
import Idealize.ShloMosaic.Lib.ValueIdx
import Idealize.ShloMosaic.PureOps.Ideal.Laws

noncomputable section

open Idealize.ShloMosaic Idealize.ShloMosaic.ValueIdx

namespace Cert.KernelIdeal.KValue

open Cert.KernelIdeal Cert.KernelIdeal.Gen Cert.Loss

/-- The sum over the last axis of a [2, 512, 512] vector, read at (j, h). -/
theorem redLast (v : FVec Ideal S2x512x512 .f32) (j : Fin 2) (h : Fin 512) :
    multiReduction .add [2] S2x512 v 0x00000000#32 reduces_S2x512x512_S2x512 (.inl rfl) rfl (ix2 j h)
      = ∑ w : Fin 512, v (ix3 j h w) := by
  refine (Ideal.multiReduction_add_single v 0x00000000#32 reduces_S2x512x512_S2x512 _ _ (ix2 j h)).trans ?_
  refine Finset.sum_congr rfl fun w _ => congrArg v ?_
  funext a
  match a with
  | ⟨0, _⟩ => rfl
  | ⟨1, _⟩ => rfl
  | ⟨2, _⟩ => rfl

/-- The sum over the middle axis of a [2, 512, 1] vector, read at (j, 0). -/
theorem redMid (u : FVec Ideal S2x512x1 .f32) (j : Fin 2) :
    multiReduction .add [1] S2x1 u 0x00000000#32 reduces_S2x512x1_S2x1 (.inl rfl) rfl (ix2 j (0 : Fin 1))
      = ∑ h : Fin 512, u (ix3 j h (0 : Fin 1)) := by
  refine (Ideal.multiReduction_add_single u 0x00000000#32 reduces_S2x512x1_S2x1 _ _ (ix2 j (0 : Fin 1))).trans ?_
  refine Finset.sum_congr rfl fun h _ => congrArg u ?_
  funext a
  match a with
  | ⟨0, _⟩ => rfl
  | ⟨1, _⟩ => rfl
  | ⟨2, _⟩ => rfl

/-- The sum over the first axis of a [2, 1, 1] vector, read at (0, 0). -/
theorem redFirst (u : FVec Ideal S2x1x1 .f32) :
    multiReduction .add [0] S1x1 u 0x00000000#32 reduces_S2x1x1_S1x1 (.inl rfl) rfl (ix2 (0 : Fin 1) (0 : Fin 1))
      = ∑ j : Fin 2, u (ix3 j (0 : Fin 1) (0 : Fin 1)) := by
  refine (Ideal.multiReduction_add_single u 0x00000000#32 reduces_S2x1x1_S1x1 _ _ (ix2 (0 : Fin 1) (0 : Fin 1))).trans ?_
  refine Finset.sum_congr rfl fun j _ => congrArg u ?_
  funext a
  match a with
  | ⟨0, _⟩ => rfl
  | ⟨1, _⟩ => rfl
  | ⟨2, _⟩ => rfl

/-- A trailing unit axis added to a [2, 512] vector. -/
theorem castA {α : Type} (u : S2x512.Idx → α) (j : Fin 2) (h : Fin 512) :
    shapeCast S2x512x1 u shapeCasts_S2x512_S2x512x1 (ix3 j h (0 : Fin 1)) = u (ix2 j h) := by
  refine shapeCast_apply u _ _ (ix2 j h) ?_
  rw [Shape.rowMajor_val_two, Shape.rowMajor_val_three]
  show j.val * 512 + h.val = (j.val * 512 + h.val) * 1 + 0
  omega

/-- A trailing unit axis added to a [2, 1] vector. -/
theorem castB {α : Type} (u : S2x1.Idx → α) (j : Fin 2) :
    shapeCast S2x1x1 u shapeCasts_S2x1_S2x1x1 (ix3 j (0 : Fin 1) (0 : Fin 1)) = u (ix2 j (0 : Fin 1)) := by
  refine shapeCast_apply u _ _ (ix2 j (0 : Fin 1)) ?_
  rw [Shape.rowMajor_val_two, Shape.rowMajor_val_three]
  show j.val * 1 + 0 = (j.val * 1 + 0) * 1 + 0
  omega

/-- A trailing unit axis added to a [1, 1] vector. -/
theorem castC {α : Type} (u : S1x1.Idx → α) :
    shapeCast S1x1x1 u shapeCasts_S1x1_S1x1x1 (ix3 (0 : Fin 1) (0 : Fin 1) (0 : Fin 1)) = u (ix2 (0 : Fin 1) (0 : Fin 1)) := by
  refine shapeCast_apply u _ _ (ix2 (0 : Fin 1) (0 : Fin 1)) ?_
  rw [Shape.rowMajor_val_two, Shape.rowMajor_val_three]
  rfl

/-- Three sums, over the last, the middle and the first axis in turn, with a trailing unit axis put back
    between them and the one remaining entry taken out: the sum over all three coordinates. -/
theorem sum3 (v : FVec Ideal S2x512x512 .f32) :
    extractAt ![0, 0, 0] (shapeCast S1x1x1 (multiReduction .add [0] S1x1 (shapeCast S2x1x1 (multiReduction .add [1] S2x1 (shapeCast S2x512x1
      (multiReduction .add [2] S2x512 v 0x00000000#32 reduces_S2x512x512_S2x512 (.inl rfl) rfl) shapeCasts_S2x512_S2x512x1)
      0x00000000#32 reduces_S2x512x1_S2x1 (.inl rfl) rfl) shapeCasts_S2x1_S2x1x1) 0x00000000#32 reduces_S2x1x1_S1x1 (.inl rfl) rfl) shapeCasts_S1x1_S1x1x1) inpos_S1x1x1_p0_0_0
      = ∑ j : Fin 2, ∑ h : Fin 512, ∑ w : Fin 512, v (ix3 j h w) := by
  have e0 : (fun a => (⟨(![0, 0, 0] : Fin 3 → Nat) a, inpos_S1x1x1_p0_0_0 a⟩ : Fin (S1x1x1.size a)))
      = ix3 (0 : Fin 1) (0 : Fin 1) (0 : Fin 1) := by
    funext a
    match a with
    | ⟨0, _⟩ => rfl
    | ⟨1, _⟩ => rfl
    | ⟨2, _⟩ => rfl
  unfold extractAt
  rw [e0]
  refine (castC _).trans ?_
  refine (redFirst _).trans ?_
  refine Finset.sum_congr rfl fun j _ => ?_
  refine (castB _ j).trans ?_
  refine (redMid _ j).trans ?_
  refine Finset.sum_congr rfl fun h _ => ?_
  refine (castA _ j h).trans ?_
  exact redLast v j h

end Cert.KernelIdeal.KValue

end
-- ==== Proof.KerTile.lean ====
/-
  The accumulator tile of one grid point.

  One step of the kernel adds to the [1, 8, 128] accumulator block a tile built from four scalars, each masked to one
  entry: the mask of the c-th scalar is (row = 0) and (lane = c), and an entry off its mask contributes zero. The four
  scalars are the point's weighted cross-entropy, and the totals over the point's [2, 512, 512] blocks of prediction
  times target, of the prediction and of the target, each total taken as three one-axis sums. So at entry (0, 0, k),
  k < 4, the step leaves the previous contents plus the k-th scalar: exactly one mask is on there, and x + 0 = x,
  0 + x = x. The block a run of points starts from is zero everywhere.
-/
import proofs.«131724_j10642928959652_2_alg».proof.Proof.KerSum3
import proofs.«131724_j10642928959652_2_alg».proof.Proof.KerOut
import proofs.«131724_j10642928959652_2_alg».proof.Proof.Images
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.KValue

open Cert.KernelIdeal Cert.KernelIdeal.Gen Cert.Loss

/-- The block an accumulator is reset to is zero everywhere. -/
theorem pay2_apply (i : S1x8x128.Idx) : k0_pay2 (F := Ideal) i = 0 := by
  unfold k0_pay2
  exact Ideal.ofBits_zero_f32

/-- The unit axis of a [2, 1, 512, 512] block dropped: entry (j, h, w) is the block's entry (j, 0, h, w). -/
theorem cast4 {α : Type} (x : S2x1x512x512.Idx → α) (j : Fin 2) (h w : Fin 512) :
    shapeCast S2x512x512 x shapeCasts_S2x1x512x512_S2x512x512 (ix3 j h w) = x (ix4 j (0 : Fin 1) h w) := by
  refine shapeCast_apply x _ _ (ix4 j (0 : Fin 1) h w) ?_
  rw [Shape.rowMajor_val_four, Shape.rowMajor_val_three]
  show ((j.val * 1 + 0) * 512 + h.val) * 512 + w.val = (j.val * 512 + h.val) * 512 + w.val
  omega

/-- The prediction block without its unit axis. -/
theorem pay3_apply (x0 : Vec Ideal S2x1x512x512 .f32) (j : Fin 2) (h w : Fin 512) :
    k0_pay3 (F := Ideal) x0 (ix3 j h w) = x0 (ix4 j (0 : Fin 1) h w) := by
  unfold k0_pay3
  exact cast4 x0 j h w

/-- The target block without its unit axis, each integer as an extended real: the target image's entry. -/
theorem pay4_apply (x1 : Vec Ideal S2x1x512x512 .i32) (j : Fin 2) (h w : Fin 512) :
    k0_pay4 (F := Ideal) x1 (ix3 j h w) = timg x1 j h.val w.val := by
  rw [timg_apply]
  unfold k0_pay4
  show (((shapeCast S2x512x512 x1 shapeCasts_S2x1x512x512_S2x512x512 (ix3 j h w)).toInt : ℝ) : EReal) = _
  rw [cast4]

/-- The kernel's total of the target block is the sum of the target images. -/
theorem pay14_eq (x1 : Vec Ideal S2x1x512x512 .i32) : k0_pay14 (F := Ideal) (k0_pay4 x1) = totD x1 := by
  unfold k0_pay14
  refine (sum3 _).trans ?_
  unfold totD
  exact Finset.sum_congr rfl fun j _ => Finset.sum_congr rfl fun h _ => Finset.sum_congr rfl fun w _ => pay4_apply x1 j h w

/-- The lane number of an [8, 128] tile at (r, l). -/
theorem lane_apply (r : Fin 8) (l : Fin 128) :
    iota .tc S8x128 32 [1] iota_S8x128_d1_w32 (ix2 r l) = BitVec.ofNat 32 l.val :=
  iota_single_apply .tc S8x128 32 1 iota_S8x128_d1_w32 (ix2 r l)

/-- The row mask of an [8, 128] tile at (r, l): row 0. -/
theorem pay15_apply (r : Fin 8) (l : Fin 128) : k0_pay15 (ix2 r l) = IntOp.cmpi .eq (BitVec.ofNat 32 r.val) 0#32 := by
  unfold k0_pay15
  show IntOp.cmpi .eq (iota .tc S8x128 32 [0] iota_S8x128_d0_w32 (ix2 r l)) 0#32 = _
  rw [iota_single_apply]

/-- The mask of entry (0, c) of an [8, 128] tile, at (r, l): row 0 and lane c. -/
def msk (r : Fin 8) (l : Fin 128) (c : BitVec 32) : BitVec 1 :=
  IntOp.andi (IntOp.cmpi .eq (BitVec.ofNat 32 r.val) 0#32) (IntOp.cmpi .eq (BitVec.ofNat 32 l.val) c)

theorem pay17_apply (r : Fin 8) (l : Fin 128) : k0_pay17 (ix2 r l) = msk r l 2#32 := by
  unfold k0_pay17
  show IntOp.andi (k0_pay15 (ix2 r l)) (IntOp.cmpi .eq (iota .tc S8x128 32 [1] iota_S8x128_d1_w32 (ix2 r l)) 2#32) = _
  rw [pay15_apply, lane_apply]
  rfl

/-- A bitwise and of two vectors, and a comparison of two vectors, read at an index. -/
theorem andi_ap {s : Shape} {w : Nat} (x y : IVec s w) (i : s.Idx) : andi x y i = IntOp.andi (x i) (y i) := rfl
theorem cmpi_ap {s : Shape} {w : Nat} (p : CmpIPredicate) (x y : IVec s w) (i : s.Idx) : cmpi p x y i = IntOp.cmpi p (x i) (y i) := rfl

/-- The first two entries of the tile: a at (0, 0) and the total of the product of the two vectors at (0, 1), zero
    elsewhere. -/
theorem pay16_apply (v4 v7 : FVec Ideal S2x512x512 .f32) (a : EReal) (r : Fin 8) (l : Fin 128) :
    k0_pay16 (F := Ideal) v4 v7 a (ix2 r l)
      = Scalar.select (msk r l 0#32) a (0 : EReal)
        + Scalar.select (msk r l 1#32) (∑ j : Fin 2, ∑ h : Fin 512, ∑ w : Fin 512, v4 (ix3 j h w) * v7 (ix3 j h w)) (0 : EReal) := by
  have hz : (FloatOps.ofBits (F := Ideal) .f32 0#32) = (0 : EReal) := Ideal.ofBits_zero_f32
  unfold k0_pay16
  simp only [addf_apply, select_apply, broadcast_apply, andi_ap, cmpi_ap, pay15_apply]
  rw [lane_apply, hz, sum3]
  rfl

/-- The total of a vector, at every entry of an [8, 128] tile. -/
theorem pay18_apply (v4 : FVec Ideal S2x512x512 .f32) (r : Fin 8) (l : Fin 128) :
    k0_pay18 (F := Ideal) v4 (ix2 r l) = ∑ j : Fin 2, ∑ h : Fin 512, ∑ w : Fin 512, v4 (ix3 j h w) := by
  unfold k0_pay18
  exact sum3 v4

theorem pay19_apply (i : S8x128.Idx) : k0_pay19 (F := Ideal) i = 0 := by
  unfold k0_pay19
  exact Ideal.ofBits_zero_f32

/-- The sum of the products of the two blocks' entries is the total of prediction times target. -/
theorem totB_eq (x0 : Vec Ideal S2x1x512x512 .f32) (x1 : Vec Ideal S2x1x512x512 .i32) :
    (∑ j : Fin 2, ∑ h : Fin 512, ∑ w : Fin 512, k0_pay3 (F := Ideal) x0 (ix3 j h w) * k0_pay4 (F := Ideal) x1 (ix3 j h w))
      = totB x0 x1 := by
  unfold totB
  exact Finset.sum_congr rfl fun j _ => Finset.sum_congr rfl fun h _ => Finset.sum_congr rfl fun w _ =>
    congrArg₂ (· * ·) (pay3_apply x0 j h w) (pay4_apply x1 j h w)

/-- The sum of the prediction block's entries is the total of the prediction. -/
theorem totC_eq (x0 : Vec Ideal S2x1x512x512 .f32) :
    (∑ j : Fin 2, ∑ h : Fin 512, ∑ w : Fin 512, k0_pay3 (F := Ideal) x0 (ix3 j h w)) = totC x0 := by
  unfold totC
  exact Finset.sum_congr rfl fun j _ => Finset.sum_congr rfl fun h _ => Finset.sum_congr rfl fun w _ => pay3_apply x0 j h w

/-- The first two tile entries of a step: the weighted cross-entropy and the total of prediction times target. -/
theorem leafA (x0 : Vec Ideal S2x1x512x512 .f32) (x1 : Vec Ideal S2x1x512x512 .i32) (r : Fin 8) (l : Fin 128) :
    k0_pay16 (F := Ideal) (k0_pay3 x0) (k0_pay4 x1) (sumA x0 x1) (ix2 r l)
      = Scalar.select (msk r l 0#32) (sumA (F := Ideal) x0 x1) (0 : EReal) + Scalar.select (msk r l 1#32) (totB x0 x1) (0 : EReal) := by
  refine (pay16_apply _ _ _ r l).trans ?_
  rw [totB_eq]

/-- The third tile entry of a step: the total of the prediction. -/
theorem leafB (x0 : Vec Ideal S2x1x512x512 .f32) (r : Fin 8) (l : Fin 128) :
    select k0_pay17 (k0_pay18 (F := Ideal) (k0_pay3 x0)) k0_pay19 (ix2 r l) = Scalar.select (msk r l 2#32) (totC x0) (0 : EReal) := by
  refine (select_apply _ _ _ _).trans ?_
  rw [pay17_apply, pay18_apply, pay19_apply, totC_eq]

/-- The fourth tile entry: a value d masked to row 0 and lane 3, z elsewhere. -/
theorem leafC (d z : EReal) (r : Fin 8) (l : Fin 128) :
    select (andi k0_pay15 (cmpi .eq (iota .tc S8x128 32 [1] iota_S8x128_d1_w32) (broadcast S8x128 3#32)))
      (broadcast S8x128 d) (broadcast S8x128 z) (ix2 r l) = Scalar.select (msk r l 3#32) d z := by
  show Scalar.select (IntOp.andi (k0_pay15 (ix2 r l)) (IntOp.cmpi .eq (iota .tc S8x128 32 [1] iota_S8x128_d1_w32 (ix2 r l)) 3#32)) d z = _
  rw [pay15_apply, lane_apply]
  rfl

/-- The step read at (0, r, l): the previous contents plus the four masked partial sums. -/
theorem stepOut_read (x0 : Vec Ideal S2x1x512x512 .f32) (x1 : Vec Ideal S2x1x512x512 .i32) (xo : Vec Ideal S1x8x128 .f32)
    (r : Fin 8) (l : Fin 128) :
    stepOut (F := Ideal) x0 x1 xo (ix3 (0 : Fin 1) r l)
      = xo (ix3 (0 : Fin 1) r l)
        + (((Scalar.select (msk r l 0#32) (sumA (F := Ideal) x0 x1) (0 : EReal) + Scalar.select (msk r l 1#32) (totB x0 x1) (0 : EReal))
            + Scalar.select (msk r l 2#32) (totC x0) (0 : EReal)) + Scalar.select (msk r l 3#32) (totD x1) (0 : EReal)) := by
  have hz : (FloatOps.ofBits (F := Ideal) .f32 0#32) = (0 : EReal) := Ideal.ofBits_zero_f32
  unfold stepOut k0_pay1
  refine (shapeCast_ab_1ab_apply _ shapeCasts_S8x128_S1x8x128 (0 : Fin 1) r l).trans ?_
  refine (addf_apply _ _ _).trans ?_
  refine congrArg₂ (· + ·) (shapeCast_1ab_ab_apply xo _ r l) ?_
  refine (addf_apply _ _ _).trans ?_
  refine congrArg₂ (· + ·) ?_ ?_
  · refine (addf_apply _ _ _).trans ?_
    exact congrArg₂ (· + ·) (leafA x0 x1 r l) (leafB x0 r l)
  · refine (leafC _ _ r l).trans ?_
    rw [pay14_eq, hz]

theorem m00 : msk (0 : Fin 8) (⟨0, by omega⟩ : Fin 128) 0#32 = 1#1 := by decide
theorem m01 : msk (0 : Fin 8) (⟨0, by omega⟩ : Fin 128) 1#32 = 0#1 := by decide
theorem m02 : msk (0 : Fin 8) (⟨0, by omega⟩ : Fin 128) 2#32 = 0#1 := by decide
theorem m03 : msk (0 : Fin 8) (⟨0, by omega⟩ : Fin 128) 3#32 = 0#1 := by decide

theorem sel4_0 (a b c d : EReal) :
    ((Scalar.select 1#1 a (0 : EReal) + Scalar.select 0#1 b (0 : EReal)) + Scalar.select 0#1 c (0 : EReal)) + Scalar.select 0#1 d (0 : EReal) = a := by
  rw [select_one, select_zero, select_zero, select_zero, add_zero, add_zero, add_zero]

theorem tileSum0 (a b c d : EReal) :
    ((Scalar.select (msk (0 : Fin 8) (⟨0, by omega⟩ : Fin 128) 0#32) a (0 : EReal)
        + Scalar.select (msk (0 : Fin 8) (⟨0, by omega⟩ : Fin 128) 1#32) b (0 : EReal))
      + Scalar.select (msk (0 : Fin 8) (⟨0, by omega⟩ : Fin 128) 2#32) c (0 : EReal))
      + Scalar.select (msk (0 : Fin 8) (⟨0, by omega⟩ : Fin 128) 3#32) d (0 : EReal) = a := by
  rw [m00, m01, m02, m03]
  exact sel4_0 a b c d

theorem m10 : msk (0 : Fin 8) (⟨1, by omega⟩ : Fin 128) 0#32 = 0#1 := by decide
theorem m11 : msk (0 : Fin 8) (⟨1, by omega⟩ : Fin 128) 1#32 = 1#1 := by decide
theorem m12 : msk (0 : Fin 8) (⟨1, by omega⟩ : Fin 128) 2#32 = 0#1 := by decide
theorem m13 : msk (0 : Fin 8) (⟨1, by omega⟩ : Fin 128) 3#32 = 0#1 := by decide

theorem sel4_1 (a b c d : EReal) :
    ((Scalar.select 0#1 a (0 : EReal) + Scalar.select 1#1 b (0 : EReal)) + Scalar.select 0#1 c (0 : EReal)) + Scalar.select 0#1 d (0 : EReal) = b := by
  rw [select_one, select_zero, select_zero, select_zero, zero_add, add_zero, add_zero]

theorem tileSum1 (a b c d : EReal) :
    ((Scalar.select (msk (0 : Fin 8) (⟨1, by omega⟩ : Fin 128) 0#32) a (0 : EReal)
        + Scalar.select (msk (0 : Fin 8) (⟨1, by omega⟩ : Fin 128) 1#32) b (0 : EReal))
      + Scalar.select (msk (0 : Fin 8) (⟨1, by omega⟩ : Fin 128) 2#32) c (0 : EReal))
      + Scalar.select (msk (0 : Fin 8) (⟨1, by omega⟩ : Fin 128) 3#32) d (0 : EReal) = b := by
  rw [m10, m11, m12, m13]
  exact sel4_1 a b c d

theorem m20 : msk (0 : Fin 8) (⟨2, by omega⟩ : Fin 128) 0#32 = 0#1 := by decide
theorem m21 : msk (0 : Fin 8) (⟨2, by omega⟩ : Fin 128) 1#32 = 0#1 := by decide
theorem m22 : msk (0 : Fin 8) (⟨2, by omega⟩ : Fin 128) 2#32 = 1#1 := by decide
theorem m23 : msk (0 : Fin 8) (⟨2, by omega⟩ : Fin 128) 3#32 = 0#1 := by decide

theorem sel4_2 (a b c d : EReal) :
    ((Scalar.select 0#1 a (0 : EReal) + Scalar.select 0#1 b (0 : EReal)) + Scalar.select 1#1 c (0 : EReal)) + Scalar.select 0#1 d (0 : EReal) = c := by
  rw [select_one, select_zero, select_zero, select_zero, zero_add, zero_add, add_zero]

theorem tileSum2 (a b c d : EReal) :
    ((Scalar.select (msk (0 : Fin 8) (⟨2, by omega⟩ : Fin 128) 0#32) a (0 : EReal)
        + Scalar.select (msk (0 : Fin 8) (⟨2, by omega⟩ : Fin 128) 1#32) b (0 : EReal))
      + Scalar.select (msk (0 : Fin 8) (⟨2, by omega⟩ : Fin 128) 2#32) c (0 : EReal))
      + Scalar.select (msk (0 : Fin 8) (⟨2, by omega⟩ : Fin 128) 3#32) d (0 : EReal) = c := by
  rw [m20, m21, m22, m23]
  exact sel4_2 a b c d

theorem m30 : msk (0 : Fin 8) (⟨3, by omega⟩ : Fin 128) 0#32 = 0#1 := by decide
theorem m31 : msk (0 : Fin 8) (⟨3, by omega⟩ : Fin 128) 1#32 = 0#1 := by decide
theorem m32 : msk (0 : Fin 8) (⟨3, by omega⟩ : Fin 128) 2#32 = 0#1 := by decide
theorem m33 : msk (0 : Fin 8) (⟨3, by omega⟩ : Fin 128) 3#32 = 1#1 := by decide

theorem sel4_3 (a b c d : EReal) :
    ((Scalar.select 0#1 a (0 : EReal) + Scalar.select 0#1 b (0 : EReal)) + Scalar.select 0#1 c (0 : EReal)) + Scalar.select 1#1 d (0 : EReal) = d := by
  rw [select_one, select_zero, select_zero, select_zero, zero_add, zero_add, zero_add]

theorem tileSum3 (a b c d : EReal) :
    ((Scalar.select (msk (0 : Fin 8) (⟨3, by omega⟩ : Fin 128) 0#32) a (0 : EReal)
        + Scalar.select (msk (0 : Fin 8) (⟨3, by omega⟩ : Fin 128) 1#32) b (0 : EReal))
      + Scalar.select (msk (0 : Fin 8) (⟨3, by omega⟩ : Fin 128) 2#32) c (0 : EReal))
      + Scalar.select (msk (0 : Fin 8) (⟨3, by omega⟩ : Fin 128) 3#32) d (0 : EReal) = d := by
  rw [m30, m31, m32, m33]
  exact sel4_3 a b c d

/-- At row 0 and lane k < 4 exactly the k-th mask is on: the four masked values sum to the k-th. -/
theorem tileSum (a b c d : EReal) (k : Fin 4) :
    ((Scalar.select (msk (0 : Fin 8) (⟨k.val, by omega⟩ : Fin 128) 0#32) a (0 : EReal)
        + Scalar.select (msk (0 : Fin 8) (⟨k.val, by omega⟩ : Fin 128) 1#32) b (0 : EReal))
      + Scalar.select (msk (0 : Fin 8) (⟨k.val, by omega⟩ : Fin 128) 2#32) c (0 : EReal))
      + Scalar.select (msk (0 : Fin 8) (⟨k.val, by omega⟩ : Fin 128) 3#32) d (0 : EReal) = ![a, b, c, d] k := by
  match k with
  | ⟨0, _⟩ => exact tileSum0 a b c d
  | ⟨1, _⟩ => exact tileSum1 a b c d
  | ⟨2, _⟩ => exact tileSum2 a b c d
  | ⟨3, _⟩ => exact tileSum3 a b c d

/-- One step leaves, at entry (0, 0, k) for k < 4, the previous contents plus the point's k-th partial sum. -/
theorem stepOut_apply (x0 : Vec Ideal S2x1x512x512 .f32) (x1 : Vec Ideal S2x1x512x512 .i32) (xo : Vec Ideal S1x8x128 .f32) (k : Fin 4) :
    stepOut (F := Ideal) x0 x1 xo (ix3 (0 : Fin 1) (0 : Fin 8) (⟨k.val, by omega⟩ : Fin 128))
      = xo (ix3 (0 : Fin 1) (0 : Fin 8) (⟨k.val, by omega⟩ : Fin 128)) + (![sumA (F := Ideal) x0 x1, totB x0 x1, totC x0, totD x1] k) := by
  refine (stepOut_read x0 x1 xo (0 : Fin 8) (⟨k.val, by omega⟩ : Fin 128)).trans ?_
  exact congrArg₂ (· + ·) rfl (tileSum _ _ _ _ k)

end Cert.KernelIdeal.KValue

end
-- ==== Proof.KerChain.lean ====
/-
  The accumulator's first four cells after the eighth point of each group.

  Cell (0, 0, k) of the accumulator block takes, at each grid point, the point's k-th partial sum on top of what it
  held; the first point of a group starts it from zero. So after point 7 it holds the left fold from zero of the
  partial sums of points 0 … 7, after point 15 that of points 8 … 15.
-/
import proofs.«131724_j10642928959652_2_alg».proof.Proof.KerArr
import proofs.«131724_j10642928959652_2_alg».proof.Proof.KerTile

noncomputable section

open Idealize.ShloMosaic Idealize.ShloMosaic.TcCoe Idealize.SL.Sem Idealize.ShloMosaic.ValueIdx

namespace Cert.KernelIdeal.KValue

open Cert.KernelIdeal Cert.KernelIdeal.Gen Cert.Loss

variable (m : (ℓ : Loc nD τ sig) → Buf (Elt Ideal) ℓ)

/-- Point t's k-th partial sum: weighted cross-entropy, prediction times target, prediction, target. -/
def q (c : Dev nD) (k : Fin 4) (t : Fin cfg0.N) : EReal :=
  ![sumA (F := Ideal) (iblk m c 0 t) (iblk m c 1 t), totB (iblk m c 0 t : Vec Ideal S2x1x512x512 .f32) (iblk m c 1 t : Vec Ideal S2x1x512x512 .i32),
    totC (iblk m c 0 t : Vec Ideal S2x1x512x512 .f32), totD (iblk m c 1 t : Vec Ideal S2x1x512x512 .i32)] k

/-- Cell (0, 0, k) of the accumulator block. -/
abbrev cell (k : Fin 4) : S1x8x128.Idx := ix3 (0 : Fin 1) (0 : Fin 8) (⟨k.val, by omega⟩ : Fin 128)

/-- The first point of a group leaves zero plus its partial sum. -/
theorem acc_start (c : Dev nD) (k : Fin 4) (n : ℕ) (hn : n < cfg0.N) (h0 : n % 8 = 0) :
    outsAt0 m c n hn (cell k) = 0 + q m c k ⟨n, hn⟩ := by
  have e := outsAt0_A m c ⟨n, hn⟩ h0
  have e' : outsAt0 m c n hn = _ := e
  rw [e', out_A, stepOut_apply, pay2_apply]
  rfl

/-- Every other point adds its partial sum to what the point before left. -/
theorem acc_step (c : Dev nD) (k : Fin 4) (n n' : ℕ) (hn : n < cfg0.N) (hn' : n' < cfg0.N) (e : n = n' + 1) (h0 : ¬n % 8 = 0) :
    outsAt0 m c n hn (cell k) = outsAt0 m c n' hn' (cell k) + q m c k ⟨n, hn⟩ := by
  subst e
  have e := outsAt0_B m c ⟨n' + 1, hn⟩ h0
  have e' : outsAt0 m c (n' + 1) hn = out0_B_2 c (grid0.coords ⟨n' + 1, hn⟩) (ms0_0 ⟨n' + 1, hn⟩) (hs0_0 ⟨n' + 1, hn⟩) (ms0_1 ⟨n' + 1, hn⟩) (hs0_1 ⟨n' + 1, hn⟩) (ms0_2 ⟨n' + 1, hn⟩) (hs0_2 ⟨n' + 1, hn⟩) (fun h => h0 ((hcond0_0 ⟨n' + 1, hn⟩).mp h)) (iblk m c 0 ⟨n' + 1, hn⟩) (iblk m c 1 ⟨n' + 1, hn⟩) (outsAt0 m c n' hn') := e
  rw [e', out_B, stepOut_apply]
  rfl

/-- After point 7. -/
theorem acc7 (c : Dev nD) (k : Fin 4) :
    outsAt0 m c 7 (lt_N 7 (by decide)) (cell k) = (((((((((0 : EReal) + q m c k ⟨0, lt_N 0 (by decide)⟩) + q m c k ⟨1, lt_N 1 (by decide)⟩) + q m c k ⟨2, lt_N 2 (by decide)⟩) + q m c k ⟨3, lt_N 3 (by decide)⟩) + q m c k ⟨4, lt_N 4 (by decide)⟩) + q m c k ⟨5, lt_N 5 (by decide)⟩) + q m c k ⟨6, lt_N 6 (by decide)⟩) + q m c k ⟨7, lt_N 7 (by decide)⟩) := by
  rw [acc_step m c k 7 6 (lt_N 7 (by decide)) (lt_N 6 (by decide)) rfl (by decide),
    acc_step m c k 6 5 (lt_N 6 (by decide)) (lt_N 5 (by decide)) rfl (by decide),
    acc_step m c k 5 4 (lt_N 5 (by decide)) (lt_N 4 (by decide)) rfl (by decide),
    acc_step m c k 4 3 (lt_N 4 (by decide)) (lt_N 3 (by decide)) rfl (by decide),
    acc_step m c k 3 2 (lt_N 3 (by decide)) (lt_N 2 (by decide)) rfl (by decide),
    acc_step m c k 2 1 (lt_N 2 (by decide)) (lt_N 1 (by decide)) rfl (by decide),
    acc_step m c k 1 0 (lt_N 1 (by decide)) (lt_N 0 (by decide)) rfl (by decide),
    acc_start m c k 0 (lt_N 0 (by decide)) (by decide)]

/-- After point 15. -/
theorem acc15 (c : Dev nD) (k : Fin 4) :
    outsAt0 m c 15 (lt_N 15 (by decide)) (cell k) = (((((((((0 : EReal) + q m c k ⟨8, lt_N 8 (by decide)⟩) + q m c k ⟨9, lt_N 9 (by decide)⟩) + q m c k ⟨10, lt_N 10 (by decide)⟩) + q m c k ⟨11, lt_N 11 (by decide)⟩) + q m c k ⟨12, lt_N 12 (by decide)⟩) + q m c k ⟨13, lt_N 13 (by decide)⟩) + q m c k ⟨14, lt_N 14 (by decide)⟩) + q m c k ⟨15, lt_N 15 (by decide)⟩) := by
  rw [acc_step m c k 15 14 (lt_N 15 (by decide)) (lt_N 14 (by decide)) rfl (by decide),
    acc_step m c k 14 13 (lt_N 14 (by decide)) (lt_N 13 (by decide)) rfl (by decide),
    acc_step m c k 13 12 (lt_N 13 (by decide)) (lt_N 12 (by decide)) rfl (by decide),
    acc_step m c k 12 11 (lt_N 12 (by decide)) (lt_N 11 (by decide)) rfl (by decide),
    acc_step m c k 11 10 (lt_N 11 (by decide)) (lt_N 10 (by decide)) rfl (by decide),
    acc_step m c k 10 9 (lt_N 10 (by decide)) (lt_N 9 (by decide)) rfl (by decide),
    acc_step m c k 9 8 (lt_N 9 (by decide)) (lt_N 8 (by decide)) rfl (by decide),
    acc_start m c k 8 (lt_N 8 (by decide)) (by decide)]

end Cert.KernelIdeal.KValue

end
-- ==== Proof.KerBlocks.lean ====
/-
  The kernel's input blocks read off the argument arrays.

  At grid point t each of the two input windows stages block (t, 0, 0, 0), of shape [2, 1, 512, 512], of its
  [32, 1, 512, 512] array. A block's coordinate on an axis is the block index times the block's extent plus the
  coordinate inside the block, so the block's element (j, 0, h, w) is the array's element (2t + j, 0, h, w): row j
  of point t's block is image 2t + j. Hence the four totals over point t's blocks are the totals over images
  2t and 2t + 1 of the arrays.
-/
import proofs.«131724_j10642928959652_2_alg».proof.Proof.KerArr
import proofs.«131724_j10642928959652_2_alg».proof.Proof.Images
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.KValue

open Cert.KernelIdeal Cert.KernelIdeal.Gen Cert.Loss

variable (m : (ℓ : Loc nD τ sig) → Buf (Elt Ideal) ℓ)

/-- Row j of point t's prediction block is image 2t + j of the prediction array. -/
theorem iblk0_apply (c : Dev nD) (t : Fin cfg0.N) (j : Fin 2) (h w : Fin 512) :
    (iblk m c 0 t : Vec Ideal S2x1x512x512 .f32) (ix4 j (0 : Fin 1) h w)
      = (m ((c : Thread nD τ).loc main_arg0) : S32x1x512x512.Idx → EReal) (ix4 (imgIx t j) (0 : Fin 1) h w) := by
  obtain ⟨-, -, -, e0, e1, e2, e3, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 4) * 2 + 1 * j.val = 2 * t.val + j.val; rw [e0]; omega
  | ⟨1, _⟩ => show win0_0.index t (1 : Fin 4) * 1 + 1 * 0 = 0; rw [e1]
  | ⟨2, _⟩ => show win0_0.index t (2 : Fin 4) * 512 + 1 * h.val = h.val; rw [e2]; omega
  | ⟨3, _⟩ => show win0_0.index t (3 : Fin 4) * 512 + 1 * w.val = w.val; rw [e3]; omega

/-- Row j of point t's target block is image 2t + j of the target array. -/
theorem iblk1_apply (c : Dev nD) (t : Fin cfg0.N) (j : Fin 2) (h w : Fin 512) :
    (iblk m c 1 t : Vec Ideal S2x1x512x512 .i32) (ix4 j (0 : Fin 1) h w)
      = (m ((c : Thread nD τ).loc main_arg1) : S32x1x512x512.Idx → BitVec 32) (ix4 (imgIx t j) (0 : Fin 1) h w) := by
  obtain ⟨-, -, -, -, -, -, -, e0, e1, e2, e3⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 4) * 2 + 1 * j.val = 2 * t.val + j.val; rw [e0]; omega
  | ⟨1, _⟩ => show win0_1.index t (1 : Fin 4) * 1 + 1 * 0 = 0; rw [e1]
  | ⟨2, _⟩ => show win0_1.index t (2 : Fin 4) * 512 + 1 * h.val = h.val; rw [e2]; omega
  | ⟨3, _⟩ => show win0_1.index t (3 : Fin 4) * 512 + 1 * w.val = w.val; rw [e3]; omega

/-- So image j of point t's target block, read as extended reals, is image 2t + j of the target array. -/
theorem timg_iblk (c : Dev nD) (t : Fin cfg0.N) (j : Fin 2) :
    timg (iblk m c 1 t : Vec Ideal S2x1x512x512 .i32) j
      = timg (m ((c : Thread nD τ).loc main_arg1) : S32x1x512x512.Idx → BitVec 32) (imgIx t j) := by
  funext hh ww
  unfold timg
  by_cases hb : hh < 512 ∧ ww < 512
  · rw [dif_pos hb, dif_pos hb, iblk1_apply]
  · rw [dif_neg hb, dif_neg hb]

/-- The weighted cross-entropy total over point t's blocks is the total over images 2t and 2t + 1. -/
theorem pointA (c : Dev nD) (t : Fin cfg0.N) :
    totA elemOne (iblk m c 0 t : Vec Ideal S2x1x512x512 .f32) (iblk m c 1 t : Vec Ideal S2x1x512x512 .i32)
      = ∑ j : Fin 2, ∑ h : Fin 512, ∑ w : Fin 512,
          elemOne ((m ((c : Thread nD τ).loc main_arg0) : S32x1x512x512.Idx → EReal) (ix4 (imgIx t j) (0 : Fin 1) h w))
            (timg (m ((c : Thread nD τ).loc main_arg1) : S32x1x512x512.Idx → BitVec 32) (imgIx t j)) h.val w.val := by
  unfold totA
  refine Finset.sum_congr rfl fun j _ => Finset.sum_congr rfl fun h _ => Finset.sum_congr rfl fun w _ => ?_
  rw [iblk0_apply, timg_iblk]

/-- Prediction times target over point t's blocks. -/
theorem pointB (c : Dev nD) (t : Fin cfg0.N) :
    totB (iblk m c 0 t : Vec Ideal S2x1x512x512 .f32) (iblk m c 1 t : Vec Ideal S2x1x512x512 .i32)
      = (∑ j : Fin 2, ∑ h : Fin 512, ∑ w : Fin 512,
          @HMul.hMul EReal EReal EReal instHMul
            ((m ((c : Thread nD τ).loc main_arg0) : S32x1x512x512.Idx → EReal) (ix4 (imgIx t j) (0 : Fin 1) h w))
            (timg (m ((c : Thread nD τ).loc main_arg1) : S32x1x512x512.Idx → BitVec 32) (imgIx t j) h.val w.val) : EReal) := by
  unfold totB
  refine Finset.sum_congr rfl fun j _ => Finset.sum_congr rfl fun h _ => Finset.sum_congr rfl fun w _ => ?_
  rw [iblk0_apply, timg_iblk]

/-- The prediction over point t's block. -/
theorem pointC (c : Dev nD) (t : Fin cfg0.N) :
    totC (iblk m c 0 t : Vec Ideal S2x1x512x512 .f32)
      = (∑ j : Fin 2, ∑ h : Fin 512, ∑ w : Fin 512,
          (m ((c : Thread nD τ).loc main_arg0) : S32x1x512x512.Idx → EReal) (ix4 (imgIx t j) (0 : Fin 1) h w) : EReal) := by
  unfold totC
  refine Finset.sum_congr rfl fun j _ => Finset.sum_congr rfl fun h _ => Finset.sum_congr rfl fun w _ => ?_
  rw [iblk0_apply]

/-- The target over point t's block. -/
theorem pointD (c : Dev nD) (t : Fin cfg0.N) :
    totD (iblk m c 1 t : Vec Ideal S2x1x512x512 .i32)
      = ∑ j : Fin 2, ∑ h : Fin 512, ∑ w : Fin 512,
          timg (m ((c : Thread nD τ).loc main_arg1) : S32x1x512x512.Idx → BitVec 32) (imgIx t j) h.val w.val := by
  unfold totD
  refine Finset.sum_congr rfl fun j _ => Finset.sum_congr rfl fun h _ => Finset.sum_congr rfl fun w _ => ?_
  rw [timg_iblk]

end Cert.KernelIdeal.KValue

end
-- ==== Proof.KerElem.lean ====
/-
  One element of the kernel's weighted cross-entropy.

  The vector the kernel sums is read at one position (j, h, w) of a block of two 512×512 images: the masks built from the
  lane and sublane counters say "w = 0", "w = 511", "h = 0", "h = 511"; a rotation by 1 or by 511 along an axis reads the
  cyclic neighbour before or after; so the two passes of maxima (fills −1e9) and of minima (fills +1e9) are the separable
  3×3 extrema of the target image, their difference decides the weight, and the product with the one-logarithm
  cross-entropy of the clipped prediction is `elemOne`.
-/
import proofs.«131724_j10642928959652_2_alg».proof.Proof.KerOut
import proofs.«131724_j10642928959652_2_alg».proof.Proof.Images
import Idealize.ShloMosaic.Lib.ValueIdx
import Idealize.ShloMosaic.Lib.KernelVsHost
import Idealize.ShloMosaic.Lib.ValueLayout

noncomputable section

open Idealize.ShloMosaic Idealize.ShloMosaic.ValueIdx

namespace Cert.KernelIdeal.KValue

open Cert.KernelIdeal Cert.KernelIdeal.Gen Cert.Loss

/-! ## Words: a select on a decided comparison -/

/-- A select on the bit of a decided proposition is the `if` on the proposition. -/
theorem select_ofBool {α : Type} (q : Prop) [Decidable q] (a b : α) :
    Scalar.select (BitVec.ofBool (decide q)) a b = if q then a else b := by
  unfold Scalar.select
  by_cases hq : q
  · rw [if_pos hq, decide_eq_true hq]; rfl
  · rw [if_neg hq, decide_eq_false hq]; rfl

/-- Two counters below 2³² are equal as 32-bit words exactly when they are equal. -/
theorem ofNat32_beq (n k : ℕ) (hn : n < 2 ^ 32) (hk : k < 2 ^ 32) :
    (BitVec.ofNat 32 n == BitVec.ofNat 32 k) = decide (n = k) := by
  by_cases h : n = k
  · subst h; simp
  · rw [decide_eq_false h]
    refine beq_eq_false_iff_ne.mpr fun he => h ?_
    have := congrArg BitVec.toNat he
    rw [BitVec.toNat_ofNat, BitVec.toNat_ofNat, Nat.mod_eq_of_lt hn, Nat.mod_eq_of_lt hk] at this
    exact this

/-- A select on "counter n equals k" (both below 2³²) is the `if` on n = k. -/
theorem select_cmpi_eq {α : Type} (n k : ℕ) (hn : n < 2 ^ 32) (hk : k < 2 ^ 32) (a b : α) :
    Scalar.select (IntOp.cmpi .eq (BitVec.ofNat 32 n) (BitVec.ofNat 32 k)) a b = if n = k then a else b := by
  unfold IntOp.cmpi
  show Scalar.select (BitVec.ofBool (BitVec.ofNat 32 n == BitVec.ofNat 32 k)) a b = _
  rw [ofNat32_beq n k hn hk]
  exact select_ofBool _ a b

/-- A select on the ideal "greater than" is the `if` on the strict order. -/
theorem select_ogt {α : Type} (x y : EReal) (a b : α) :
    Scalar.select (FloatOps.cmpf (F := Ideal) (φ := .f32) .ogt x y) a b = if y < x then a else b :=
  select_ofBool (y < x) a b

/-! ## The four edge masks at a position -/

theorem sel_pay6 {α : Type} (j : Fin 2) (h w : Fin 512) (a b : α) :
    Scalar.select (k0_pay6 (ix3 j h w)) a b = if w.val = 0 then a else b := by
  have hw : w.val < 2 ^ 32 := lt_trans w.isLt (by norm_num)
  refine Eq.trans ?_ (select_cmpi_eq w.val 0 hw (by norm_num) a b)
  unfold k0_pay6 iota cmpi
  show Scalar.select (IntOp.cmpi .eq (BitVec.ofNat 32 (0 * 512 + w.val)) 0#32) a b = _
  rw [Nat.zero_mul, Nat.zero_add]

theorem sel_pay7 {α : Type} (j : Fin 2) (h w : Fin 512) (a b : α) :
    Scalar.select (k0_pay7 (ix3 j h w)) a b = if w.val = 511 then a else b := by
  have hw : w.val < 2 ^ 32 := lt_trans w.isLt (by norm_num)
  refine Eq.trans ?_ (select_cmpi_eq w.val 511 hw (by norm_num) a b)
  unfold k0_pay7 iota cmpi
  show Scalar.select (IntOp.cmpi .eq (BitVec.ofNat 32 (0 * 512 + w.val)) 511#32) a b = _
  rw [Nat.zero_mul, Nat.zero_add]

theorem sel_pay8 {α : Type} (j : Fin 2) (h w : Fin 512) (a b : α) :
    Scalar.select (k0_pay8 (ix3 j h w)) a b = if h.val = 0 then a else b := by
  have hh : h.val < 2 ^ 32 := lt_trans h.isLt (by norm_num)
  refine Eq.trans ?_ (select_cmpi_eq h.val 0 hh (by norm_num) a b)
  unfold k0_pay8 iota cmpi
  show Scalar.select (IntOp.cmpi .eq (BitVec.ofNat 32 (0 * 512 + h.val)) 0#32) a b = _
  rw [Nat.zero_mul, Nat.zero_add]

theorem sel_pay9 {α : Type} (j : Fin 2) (h w : Fin 512) (a b : α) :
    Scalar.select (k0_pay9 (ix3 j h w)) a b = if h.val = 511 then a else b := by
  have hh : h.val < 2 ^ 32 := lt_trans h.isLt (by norm_num)
  refine Eq.trans ?_ (select_cmpi_eq h.val 511 hh (by norm_num) a b)
  unfold k0_pay9 iota cmpi
  show Scalar.select (IntOp.cmpi .eq (BitVec.ofNat 32 (0 * 512 + h.val)) 511#32) a b = _
  rw [Nat.zero_mul, Nat.zero_add]

/-! ## A rotation read at a position -/

/-- A rotation along the last axis reads the entry whose last coordinate is moved back by the amount, cyclically. -/
theorem rot2_apply {α : Type} (sb : BitVec 32) (amt : ℕ) (hamt : sb.toNat % 512 = amt) (v : S2x512x512.Idx → α)
    (hr : S2x512x512.Rotates 2 none) (j : Fin 2) (h w : Fin 512) :
    dynamicRotate 2 sb none v hr (ix3 j h w)
      = v (ix3 j h (⟨(w.val + 512 - amt) % 512, Nat.mod_lt _ (by norm_num)⟩ : Fin 512)) := by
  refine dynamicRotate_apply 2 sb v hr _ _ fun b => ?_
  match b with
  | ⟨0, _⟩ => rfl
  | ⟨1, _⟩ => rfl
  | ⟨2, _⟩ => show (w.val + 512 - amt) % 512 = (w.val + 512 - sb.toNat % 512) % 512; rw [hamt]

/-- A rotation along the middle axis reads the entry whose middle coordinate is moved back by the amount, cyclically. -/
theorem rot1_apply {α : Type} (sb : BitVec 32) (amt : ℕ) (hamt : sb.toNat % 512 = amt) (v : S2x512x512.Idx → α)
    (hr : S2x512x512.Rotates 1 none) (j : Fin 2) (h w : Fin 512) :
    dynamicRotate 1 sb none v hr (ix3 j h w)
      = v (ix3 j (⟨(h.val + 512 - amt) % 512, Nat.mod_lt _ (by norm_num)⟩ : Fin 512) w) := by
  refine dynamicRotate_apply 1 sb v hr _ _ fun b => ?_
  match b with
  | ⟨0, _⟩ => rfl
  | ⟨1, _⟩ => show (h.val + 512 - amt) % 512 = (h.val + 512 - sb.toNat % 512) % 512; rw [hamt]
  | ⟨2, _⟩ => rfl

theorem rot2_one {α : Type} (v : S2x512x512.Idx → α) (hr : S2x512x512.Rotates 2 none) (j : Fin 2) (h w : Fin 512) :
    dynamicRotate 2 1#32 none v hr (ix3 j h w)
      = v (ix3 j h (⟨(w.val + 512 - 1) % 512, Nat.mod_lt _ (by norm_num)⟩ : Fin 512)) :=
  rot2_apply 1#32 1 (by decide) v hr j h w
theorem rot2_last {α : Type} (v : S2x512x512.Idx → α) (hr : S2x512x512.Rotates 2 none) (j : Fin 2) (h w : Fin 512) :
    dynamicRotate 2 511#32 none v hr (ix3 j h w)
      = v (ix3 j h (⟨(w.val + 512 - 511) % 512, Nat.mod_lt _ (by norm_num)⟩ : Fin 512)) :=
  rot2_apply 511#32 511 (by decide) v hr j h w
theorem rot1_one {α : Type} (v : S2x512x512.Idx → α) (hr : S2x512x512.Rotates 1 none) (j : Fin 2) (h w : Fin 512) :
    dynamicRotate 1 1#32 none v hr (ix3 j h w)
      = v (ix3 j (⟨(h.val + 512 - 1) % 512, Nat.mod_lt _ (by norm_num)⟩ : Fin 512) w) :=
  rot1_apply 1#32 1 (by decide) v hr j h w
theorem rot1_last {α : Type} (v : S2x512x512.Idx → α) (hr : S2x512x512.Rotates 1 none) (j : Fin 2) (h w : Fin 512) :
    dynamicRotate 1 511#32 none v hr (ix3 j h w)
      = v (ix3 j (⟨(h.val + 512 - 511) % 512, Nat.mod_lt _ (by norm_num)⟩ : Fin 512) w) :=
  rot1_apply 511#32 511 (by decide) v hr j h w

/-! ## The target as reals and the clipped prediction at a position -/

/-- Dropping the unit axis of a [2, 1, 512, 512] block reads (j, 0, h, w) at (j, h, w). -/
theorem cast_drop_apply {α : Type} (x : S2x1x512x512.Idx → α) (hc : S2x1x512x512.ShapeCasts S2x512x512)
    (j : Fin 2) (h w : Fin 512) :
    shapeCast S2x512x512 x hc (ix3 j h w) = x (ix4 j (0 : Fin 1) h w) :=
  shapeCast_apply x hc _ _ (by
    rw [Shape.rowMajor_val_four, Shape.rowMajor_val_three]
    show ((j.val * 1 + 0) * 512 + h.val) * 512 + w.val = (j.val * 512 + h.val) * 512 + w.val
    rw [Nat.mul_one, Nat.add_zero])

theorem pay4_at (x1 : Vec Ideal S2x1x512x512 .i32) (j : Fin 2) (h w : Fin 512) :
    k0_pay4 (F := Ideal) x1 (ix3 j h w) = timg x1 j h.val w.val := by
  rw [timg_apply]
  unfold k0_pay4
  show FloatOps.sitofp (F := Ideal) .f32 (shapeCast S2x512x512 x1 shapeCasts_S2x1x512x512_S2x512x512 (ix3 j h w)) = _
  rw [cast_drop_apply]
  rfl

theorem pay5_apply (x0 : Vec Ideal S2x1x512x512 .f32) (j : Fin 2) (h w : Fin 512) :
    k0_pay5 (F := Ideal) x0 (ix3 j h w) = clip (x0 (ix4 j (0 : Fin 1) h w)) := by
  unfold k0_pay5 k0_pay3 clip
  show min _ (max _ (shapeCast S2x512x512 x0 shapeCasts_S2x1x512x512_S2x512x512 (ix3 j h w))) = _
  rw [cast_drop_apply]
  rfl

/-- The same four readings with the absent stride's type written with the literal rank. -/
theorem rot2_one' {α : Type} (v : S2x512x512.Idx → α) (hr : S2x512x512.Rotates 2 none) (j : Fin 2) (h w : Fin 512) :
    @dynamicRotate S2x512x512 α 2 1#32 (@none (ℕ × Fin 3)) v hr (ix3 j h w)
      = v (ix3 j h (⟨(w.val + 512 - 1) % 512, Nat.mod_lt _ (by norm_num)⟩ : Fin 512)) :=
  rot2_one v hr j h w
theorem rot2_last' {α : Type} (v : S2x512x512.Idx → α) (hr : S2x512x512.Rotates 2 none) (j : Fin 2) (h w : Fin 512) :
    @dynamicRotate S2x512x512 α 2 511#32 (@none (ℕ × Fin 3)) v hr (ix3 j h w)
      = v (ix3 j h (⟨(w.val + 512 - 511) % 512, Nat.mod_lt _ (by norm_num)⟩ : Fin 512)) :=
  rot2_last v hr j h w
theorem rot1_one' {α : Type} (v : S2x512x512.Idx → α) (hr : S2x512x512.Rotates 1 none) (j : Fin 2) (h w : Fin 512) :
    @dynamicRotate S2x512x512 α 1 1#32 (@none (ℕ × Fin 3)) v hr (ix3 j h w)
      = v (ix3 j (⟨(h.val + 512 - 1) % 512, Nat.mod_lt _ (by norm_num)⟩ : Fin 512) w) :=
  rot1_one v hr j h w
theorem rot1_last' {α : Type} (v : S2x512x512.Idx → α) (hr : S2x512x512.Rotates 1 none) (j : Fin 2) (h w : Fin 512) :
    @dynamicRotate S2x512x512 α 1 511#32 (@none (ℕ × Fin 3)) v hr (ix3 j h w)
      = v (ix3 j (⟨(h.val + 512 - 511) % 512, Nat.mod_lt _ (by norm_num)⟩ : Fin 512) w) :=
  rot1_last v hr j h w

/-- A logarithm at a position is the logarithm of the entry. -/
theorem log_apply (a : FVec Ideal S2x512x512 .f32) (i : S2x512x512.Idx) : log a i = Ideal.log (a i) := rfl

/-! ## The pass of maxima along the rows, and its two shifted copies -/

/-- Along the last axis the kernel's maximum of the two masked neighbours and the entry is one pass of `pass1`. -/
theorem pay10_apply (x1 : Vec Ideal S2x1x512x512 .i32) (j : Fin 2) (h w : Fin 512) :
    k0_pay10 (F := Ideal) x1 (ix3 j h w)
      = pass1 max (Ideal.ofBits .f32 0xCE6E6B28#32) (fun ww => timg x1 j h.val ww) w.val := by
  unfold k0_pay10
  dsimp only
  simp only [maximumf_apply, select_apply, broadcast_apply, rot2_one, rot2_last, rot2_one', rot2_last', sel_pay6, sel_pay7,
    pay4_at]
  rfl

theorem pay11_apply (x1 : Vec Ideal S2x1x512x512 .i32) (j : Fin 2) (h w : Fin 512) :
    k0_pay11 (F := Ideal) x1 (ix3 j h w)
      = if h.val = 0 then Ideal.ofBits .f32 0xCE6E6B28#32
        else pass1 max (Ideal.ofBits .f32 0xCE6E6B28#32) (fun ww => timg x1 j ((h.val + 512 - 1) % 512) ww) w.val := by
  unfold k0_pay11
  dsimp only
  simp only [select_apply, broadcast_apply, rot1_one, rot1_one', sel_pay8, pay10_apply]
  rfl

theorem pay12_apply (x1 : Vec Ideal S2x1x512x512 .i32) (j : Fin 2) (h w : Fin 512) :
    k0_pay12 (F := Ideal) x1 (ix3 j h w)
      = pass1 max (Ideal.ofBits .f32 0xCE6E6B28#32) (fun ww => timg x1 j ((h.val + 512 - 511) % 512) ww) w.val := by
  unfold k0_pay12
  dsimp only
  simp only [rot1_last, rot1_last', pay10_apply]

/-! ## The summed vector -/

/-- The vector the kernel sums: the weighted cross-entropy of every element of the block, from the target as reals (v7), the
    clipped prediction (v11), the four edge masks and the three row-pass vectors. -/
def wce (v7 v11 : FVec Ideal S2x512x512 .f32) (v14 v16 v19 v21 : IVec S2x512x512 1) (v29 v32 v33 : FVec Ideal S2x512x512 .f32) :
    FVec Ideal S2x512x512 .f32 :=
  have cst_18 : Ideal .f32 := Scalar.ofBits .f32 0xCE6E6B28#32
  have v34 : FVec Ideal S2x512x512 .f32 := broadcast S2x512x512 cst_18
  have v35 : FVec Ideal S2x512x512 .f32 := select v21 v34 v33
  have v36 : FVec Ideal S2x512x512 .f32 := maximumf v32 v35
  have v37 : FVec Ideal S2x512x512 .f32 := maximumf v36 v29
  have v38 : FVec Ideal S2x512x512 .f32 := dynamicRotate 2 1#32 none v7 rotates_S2x512x512_d2
  have cst_20 : Ideal .f32 := Scalar.ofBits .f32 0x4E6E6B28#32
  have v39 : FVec Ideal S2x512x512 .f32 := broadcast S2x512x512 cst_20
  have v40 : FVec Ideal S2x512x512 .f32 := select v14 v39 v38
  have v41 : FVec Ideal S2x512x512 .f32 := dynamicRotate 2 511#32 none v7 rotates_S2x512x512_d2
  have cst_22 : Ideal .f32 := Scalar.ofBits .f32 0x4E6E6B28#32
  have v42 : FVec Ideal S2x512x512 .f32 := broadcast S2x512x512 cst_22
  have v43 : FVec Ideal S2x512x512 .f32 := select v16 v42 v41
  have v44 : FVec Ideal S2x512x512 .f32 := minimumf v40 v43
  have v45 : FVec Ideal S2x512x512 .f32 := minimumf v44 v7
  have v46 : FVec Ideal S2x512x512 .f32 := dynamicRotate 1 1#32 none v45 rotates_S2x512x512_d1
  have cst_24 : Ideal .f32 := Scalar.ofBits .f32 0x4E6E6B28#32
  have v47 : FVec Ideal S2x512x512 .f32 := broadcast S2x512x512 cst_24
  have v48 : FVec Ideal S2x512x512 .f32 := select v19 v47 v46
  have v49 : FVec Ideal S2x512x512 .f32 := dynamicRotate 1 511#32 none v45 rotates_S2x512x512_d1
  have cst_26 : Ideal .f32 := Scalar.ofBits .f32 0x4E6E6B28#32
  have v50 : FVec Ideal S2x512x512 .f32 := broadcast S2x512x512 cst_26
  have v51 : FVec Ideal S2x512x512 .f32 := select v21 v50 v49
  have v52 : FVec Ideal S2x512x512 .f32 := minimumf v48 v51
  have v53 : FVec Ideal S2x512x512 .f32 := minimumf v52 v45
  have v54 : FVec Ideal S2x512x512 .f32 := subf v37 v53
  have cst_27 : Ideal .f32 := Scalar.ofBits .f32 0x00000000#32
  have v55 : FVec Ideal S2x512x512 .f32 := broadcast S2x512x512 cst_27
  have v56 : IVec S2x512x512 1 := cmpf .ogt v54 v55
  have cst_28 : Ideal .f32 := Scalar.ofBits .f32 0x40400000#32
  have cst_29 : Ideal .f32 := Scalar.ofBits .f32 0x3F800000#32
  have v57 : FVec Ideal S2x512x512 .f32 := broadcast S2x512x512 cst_28
  have v58 : FVec Ideal S2x512x512 .f32 := broadcast S2x512x512 cst_29
  have v59 : FVec Ideal S2x512x512 .f32 := select v56 v57 v58
  have cst_30 : Ideal .f32 := Scalar.ofBits .f32 0x3F000000#32
  have v60 : FVec Ideal S2x512x512 .f32 := broadcast S2x512x512 cst_30
  have v61 : IVec S2x512x512 1 := cmpf .ogt v7 v60
  have cst_31 : Ideal .f32 := Scalar.ofBits .f32 0x3F800000#32
  have v62 : FVec Ideal S2x512x512 .f32 := broadcast S2x512x512 cst_31
  have v63 : FVec Ideal S2x512x512 .f32 := subf v62 v11
  have v64 : FVec Ideal S2x512x512 .f32 := select v61 v11 v63
  have v65 : FVec Ideal S2x512x512 .f32 := log v64
  have cst_32 : Ideal .f32 := Scalar.ofBits .f32 0x00000000#32
  have v66 : FVec Ideal S2x512x512 .f32 := broadcast S2x512x512 cst_32
  have v67 : FVec Ideal S2x512x512 .f32 := subf v66 v65
  have v68 : FVec Ideal S2x512x512 .f32 := mulf v67 v59
  v68

theorem wce_apply (x0 : Vec Ideal S2x1x512x512 .f32) (x1 : Vec Ideal S2x1x512x512 .i32) (j : Fin 2) (h w : Fin 512) :
    wce (k0_pay4 x1) (k0_pay5 x0) k0_pay6 k0_pay7 k0_pay8 k0_pay9 (k0_pay10 x1) (k0_pay11 x1) (k0_pay12 x1) (ix3 j h w)
      = elemOne (x0 (ix4 j (0 : Fin 1) h w)) (timg x1 j) h.val w.val := by
  unfold wce
  dsimp only
  simp only [mulf_apply, subf_apply, maximumf_apply, minimumf_apply, select_apply, broadcast_apply, cmpf_apply, log_apply,
    rot2_one, rot2_last, rot1_one, rot1_last, rot2_one', rot2_last', rot1_one', rot1_last',
    sel_pay6, sel_pay7, sel_pay8, sel_pay9, select_ogt, pay4_at, pay5_apply, pay10_apply, pay11_apply, pay12_apply]
  rfl

/-- The kernel's first partial sum is the three nested lane sums of that vector. -/
theorem pay13_eq_sum (v7 v11 : FVec Ideal S2x512x512 .f32) (v14 v16 v19 v21 : IVec S2x512x512 1)
    (v29 v32 v33 : FVec Ideal S2x512x512 .f32) :
    k0_pay13 (F := Ideal) v7 v11 v14 v16 v19 v21 v29 v32 v33
      = extractAt ![0, 0, 0] (shapeCast S1x1x1 (multiReduction .add [0] S1x1 (shapeCast S2x1x1 (multiReduction .add [1] S2x1
          (shapeCast S2x512x1 (multiReduction .add [2] S2x512 (wce v7 v11 v14 v16 v19 v21 v29 v32 v33) 0x00000000#32
            reduces_S2x512x512_S2x512 (.inl rfl) rfl) shapeCasts_S2x512_S2x512x1) 0x00000000#32 reduces_S2x512x1_S2x1 (.inl rfl) rfl)
          shapeCasts_S2x1_S2x1x1) 0x00000000#32 reduces_S2x1x1_S1x1 (.inl rfl) rfl) shapeCasts_S1x1_S1x1x1) inpos_S1x1x1_p0_0_0 :=
  rfl

end Cert.KernelIdeal.KValue

end
-- ==== Proof.KerSumA.lean ====
/-
  The kernel's first partial sum is the weighted cross-entropy summed over the block.

  The three nested lane sums of the summed vector are the triple sum over images, rows and columns of its entries, and each
  entry is one element's weighted cross-entropy.
-/
import proofs.«131724_j10642928959652_2_alg».proof.Proof.KerElem
import proofs.«131724_j10642928959652_2_alg».proof.Proof.KerSum3

noncomputable section

open Idealize.ShloMosaic Idealize.ShloMosaic.ValueIdx

namespace Cert.KernelIdeal.KValue

open Cert.KernelIdeal Cert.KernelIdeal.Gen Cert.Loss

/-- The point's first partial sum is the total of `elemOne` over its two images. -/
theorem sumA_eq (x0 : Vec Ideal S2x1x512x512 .f32) (x1 : Vec Ideal S2x1x512x512 .i32) :
    sumA (F := Ideal) x0 x1 = totA elemOne x0 x1 := by
  unfold sumA
  refine (pay13_eq_sum _ _ _ _ _ _ _ _ _).trans ?_
  refine (sum3 _).trans ?_
  unfold totA
  refine Finset.sum_congr rfl fun j _ => Finset.sum_congr rfl fun h _ => Finset.sum_congr rfl fun w _ => ?_
  exact wce_apply x0 x1 j h w

end Cert.KernelIdeal.KValue

end
-- ==== Proof.KerTail.lean ====
/-
  The kernel's operations after its grid: from the accumulator array [2, 8, 128] the grid leaves, to the three results.

  The first row's first four lanes of the two accumulator blocks are viewed as a [2, 4] array and added over the blocks
  from zero: four column sums. Each is sliced out and viewed as a scalar; the scalar operations that follow are
  `tail3` of the four.
-/
import proofs.«131724_j10642928959652_2_alg».proof.Proof.Gen.KernelIdeal.Frame
import proofs.«131724_j10642928959652_2_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.KValue

open Cert.KernelIdeal Cert.KernelIdeal.Gen Cert.Loss Idealize.ShloMosaic Idealize.ShloMosaic.ValueIdx Idealize.ShloMosaic.TcCoe Idealize.SL.Sem

/-- Column k of the two accumulator blocks, added from zero. -/
def colSum (A : S2x8x128.Idx → EReal) (k : Fin 4) : EReal :=
  0 + (A (ix3 (0 : Fin 2) (0 : Fin 8) (⟨k.val, by omega⟩ : Fin 128)) + A (ix3 (1 : Fin 2) (0 : Fin 8) (⟨k.val, by omega⟩ : Fin 128)))

/-- The accumulator sliced to its first row's first four lanes and viewed [2, 4], at (r, k): block r's entry (0, k). -/
theorem acc_read (A : S2x8x128.Idx → EReal) (h1 : S2x8x128.Slices ![0, 0, 0] S2x1x4) (h2 : S2x1x4.ShapeCasts S2x4)
    (j : S2x4.Idx) (r : Fin 2) (k : Fin 4) (hr : (j 0).val = r.val) (hk : (j 1).val = k.val) :
    shapeCast S2x4 (extractStridedSlice S2x1x4 ![0, 0, 0] A h1) h2 j = A (ix3 r (0 : Fin 8) (⟨k.val, by omega⟩ : Fin 128)) := by
  refine (shapeCast_apply _ h2 j (ix3 r (0 : Fin 1) k) ?_).trans ?_
  · rw [Shape.rowMajor_val_three, Shape.rowMajor_val_two]
    show (r.val * 1 + 0) * 4 + k.val = (j 0).val * 4 + (j 1).val
    omega
  · refine extractStridedSlice_apply _ A h1 _ _ ?_
    intro a
    match a with
    | ⟨0, _⟩ => show r.val = 0 + r.val; omega
    | ⟨1, _⟩ => show 0 = 0 + 0; rfl
    | ⟨2, _⟩ => show k.val = 0 + k.val; omega

/-- Entry o of the column sums, sliced out and viewed as a scalar. -/
theorem col_read (A : S2x8x128.Idx → EReal) (o : ℕ) (ho : o < 4)
    (h1 : S2x8x128.Slices ![0, 0, 0] S2x1x4) (h2 : S2x1x4.ShapeCasts S2x4) (h3 : S2x4.ReducesTo [0] S4) (h4 : 0 < S_.numel)
    (h5 : S4.Slices ![o] S1) (h6 : S1.ShapeCasts S_) (i : S_.Idx) :
    shapeCast S_ (extractStridedSlice S1 ![o] (Host.reduceAdd (F := Ideal) (φ := .f32)
        (fun j => shapeCast S2x4 (extractStridedSlice S2x1x4 ![0, 0, 0] A h1) h2 j) (constant S_ .f32 0x00000000#32) h3 h4) h5) h6 i
      = colSum A ⟨o, ho⟩ := by
  refine (shapeCast_apply _ h6 i (ix1 (0 : Fin 1)) ?_).trans ?_
  · rw [Shape.rowMajor_val_one]; exact (Shape.rowMajorPi_zero _ _).symm
  refine (extractStridedSlice_apply _ _ h5 (ix1 (0 : Fin 1)) (ix1 (⟨o, ho⟩ : Fin 4)) ?_).trans ?_
  · intro a
    match a with
    | ⟨0, _⟩ => show o = o + 0; rfl
  show Ideal.hostReduceAdd h3 _ _ (ix1 ⟨o, ho⟩) = _
  rw [Ideal.hostReduceAdd_single h3 (by decide : S2x4.Reduces [0] S4)]
  have hred : S2x4.Reduces [0] S4 := by decide
  show _ + ∑ k : Fin 2, shapeCast S2x4 (extractStridedSlice S2x1x4 ![0, 0, 0] A h1) h2 (hred.lift (ix1 ⟨o, ho⟩) k) = _
  rw [Fin.sum_univ_two]
  unfold colSum
  refine congrArg₂ (· + ·) Ideal.ofBits_zero_f32 (congrArg₂ (· + ·) ?_ ?_)
  · exact acc_read A h1 h2 _ 0 ⟨o, ho⟩ rfl rfl
  · exact acc_read A h1 h2 _ 1 ⟨o, ho⟩ rfl rfl

/-- Entry o of the column sums as a scalar array. -/
def colArr (A : S2x8x128.Idx → EReal) (o : ℕ) (h5 : S4.Slices ![o] S1) : S_.Idx → EReal :=
  fun i => shapeCast S_ (extractStridedSlice S1 ![o] (Host.reduceAdd (F := Ideal) (φ := .f32)
    (fun j => shapeCast S2x4 (extractStridedSlice S2x1x4 ![0, 0, 0] A slices_S2x8x128_S2x1x4_0_0_0) shapeCasts_S2x1x4_S2x4 j)
    (constant S_ .f32 0x00000000#32) reducesTo_S2x4_S4_d0 h_S_) h5) shapeCasts_S1_S_ i

/-- It is constant at the column sum. -/
theorem colArr_eq (A : S2x8x128.Idx → EReal) (o : ℕ) (ho : o < 4) (h5 : S4.Slices ![o] S1) :
    colArr A o h5 = fun _ => colSum A ⟨o, ho⟩ :=
  funext fun i => col_read A o ho _ _ _ _ h5 _ i

/-- The scalar operations after the column sums: the mean cross-entropy, -/
def kt12 (x5 : S_.Idx → EReal) : S_.Idx → EReal :=
  Host.divf (F := Ideal) (φ := .f32) x5 (constant S_ .f32 0x4B000000#32)
/-- one minus the smoothed Dice quotient, -/
def kt18 (x7 x9 x11 : S_.Idx → EReal) : S_.Idx → EReal :=
  subf (F := Ideal) (φ := .f32) (constant S_ .f32 0x3F800000#32)
    (Host.divf (addf (mulf (constant S_ .f32 0x40000000#32) x7) (constant S_ .f32 0x358637BD#32))
      (addf (addf x9 x11) (constant S_ .f32 0x358637BD#32)))
/-- and half of each, added. -/
def kt21 (x5 x7 x9 x11 : S_.Idx → EReal) : S_.Idx → EReal :=
  addf (F := Ideal) (φ := .f32) (mulf (constant S_ .f32 0x3F000000#32) (kt12 x5)) (mulf (constant S_ .f32 0x3F000000#32) (kt18 x7 x9 x11))

/-- At constant arrays they are `tail3`'s three components. -/
theorem kt_tail3 (a b c d : EReal) :
    kt21 (fun _ => a) (fun _ => b) (fun _ => c) (fun _ => d) = (fun _ => (tail3 a b c d).1)
    ∧ kt12 (fun _ => a) = (fun _ => (tail3 a b c d).2.1)
    ∧ kt18 (fun _ => b) (fun _ => c) (fun _ => d) = (fun _ => (tail3 a b c d).2.2) :=
  ⟨rfl, rfl, rfl⟩

/-- The three results after the operations, from any contents W of the buffers whose accumulator array is A. -/
theorem tail_of (W : Valuation τ sig (Elt Ideal)) (A : S2x8x128.Idx → EReal) (hA : W (Proc.devRef .tc main_v0) = A) :
    StableHlo.after (hostOps1 (F := Ideal)) W (Proc.devRef .tc main_v21) = (fun _ => (tail3 (colSum A 0) (colSum A 1) (colSum A 2) (colSum A 3)).1)
    ∧ StableHlo.after (hostOps1 (F := Ideal)) W (Proc.devRef .tc main_v12) = (fun _ => (tail3 (colSum A 0) (colSum A 1) (colSum A 2) (colSum A 3)).2.1)
    ∧ StableHlo.after (hostOps1 (F := Ideal)) W (Proc.devRef .tc main_v18) = (fun _ => (tail3 (colSum A 0) (colSum A 1) (colSum A 2) (colSum A 3)).2.2) := by
  subst hA
  have h21 : StableHlo.after (hostOps1 (F := Ideal)) W (Proc.devRef .tc main_v21)
      = kt21 (colArr (W (Proc.devRef .tc main_v0)) 0 slices_S4_S1_0) (colArr (W (Proc.devRef .tc main_v0)) 1 slices_S4_S1_1)
          (colArr (W (Proc.devRef .tc main_v0)) 2 slices_S4_S1_2) (colArr (W (Proc.devRef .tc main_v0)) 3 slices_S4_S1_3) := by
    after_results_simp <;> rfl
  have h12 : StableHlo.after (hostOps1 (F := Ideal)) W (Proc.devRef .tc main_v12)
      = kt12 (colArr (W (Proc.devRef .tc main_v0)) 0 slices_S4_S1_0) := by
    after_results_simp <;> rfl
  have h18 : StableHlo.after (hostOps1 (F := Ideal)) W (Proc.devRef .tc main_v18)
      = kt18 (colArr (W (Proc.devRef .tc main_v0)) 1 slices_S4_S1_1)
          (colArr (W (Proc.devRef .tc main_v0)) 2 slices_S4_S1_2) (colArr (W (Proc.devRef .tc main_v0)) 3 slices_S4_S1_3) := by
    after_results_simp <;> rfl
  rw [h21, h12, h18, colArr_eq _ 0 (by omega), colArr_eq _ 1 (by omega), colArr_eq _ 2 (by omega), colArr_eq _ 3 (by omega)]
  exact kt_tail3 _ _ _ _

variable (m : (ℓ : Loc nD τ sig) → Buf (Elt Ideal) ℓ)

/-- The three results of the operations after the region, from the accumulator array the region leaves. -/
theorem tail_results (c : Dev nD) (A : Buf (Elt Ideal) ((c : Thread nD τ).loc main_v0)) (hA : (dats (F := Ideal) m 0 c).arrAt 2 cfg0.N = A) :
    Pipeline.afterTail₀ cfgs (dats m) 0 (V0 m) [hostOps1] c main_v21 = (fun _ => (tail3 (colSum A 0) (colSum A 1) (colSum A 2) (colSum A 3)).1)
    ∧ Pipeline.afterTail₀ cfgs (dats m) 0 (V0 m) [hostOps1] c main_v12 = (fun _ => (tail3 (colSum A 0) (colSum A 1) (colSum A 2) (colSum A 3)).2.1)
    ∧ Pipeline.afterTail₀ cfgs (dats m) 0 (V0 m) [hostOps1] c main_v18 = (fun _ => (tail3 (colSum A 0) (colSum A 1) (colSum A 2) (colSum A 3)).2.2) := by
  unfold Pipeline.afterTail₀
  have hW : Pipeline.withArrays (cfgs 0).spec c (V0 m c) (fun w => (dats (F := Ideal) m 0 c).arrAt w (cfgs 0).N) (Proc.devRef .tc main_v0) = A :=
    (Pipeline.withArrays_arr spec0 launch0.win.arr_inj c _ _ 2).trans hA
  generalize Pipeline.withArrays (cfgs 0).spec c (V0 m c) (fun w => (dats (F := Ideal) m 0 c).arrAt w (cfgs 0).N) = W at hW ⊢
  have hl : [hostOps1 (F := Ideal)].flatten = hostOps1 := by
    rw [List.flatten_cons, List.flatten_nil, List.append_nil]
  rw [hl]
  exact tail_of W A hW

end Cert.KernelIdeal.KValue

end
-- ==== Proof.BlockSum.lean ====
/-
  Sixteen grid points in two groups of eight; each point covers two consecutive images (point t covers images
  2t and 2t + 1). Within a group the points' totals are left-folded from zero, and the two groups' results are
  added from zero. Addition being associative and commutative with identity zero, the result is the total over
  all thirty-two images: the pairs (t, j) ↦ 2t + j, t < 16, j < 2, enumerate 0, …, 31 exactly once.
-/
import proofs.«131724_j10642928959652_2_alg».proof.Proof.Spec

namespace Cert.Loss

theorem blocks_total {M : Type*} [AddCommMonoid M] (R : Fin 32 → M) (u : Fin 16 → M)
    (hu : ∀ t : Fin 16, u t = ∑ j : Fin 2, R ⟨2 * t.val + j.val, by omega⟩) :
    (0 : M) + ((((((((((0 : M) + u 0) + u 1) + u 2) + u 3) + u 4) + u 5) + u 6) + u 7) + (((((((((0 : M) + u 8) + u 9) + u 10) + u 11) + u 12) + u 13) + u 14) + u 15)) = ∑ b : Fin 32, R b := by
  have h16 : ∑ t : Fin 16, u t = (u 0 + u 1 + u 2 + u 3 + u 4 + u 5 + u 6 + u 7)
      + (u 8 + u 9 + u 10 + u 11 + u 12 + u 13 + u 14 + u 15) := by
    have key := Fin.sum_univ_add (a := 8) (b := 8) u
    rw [Fin.sum_univ_eight, Fin.sum_univ_eight] at key
    exact key
  have e : ∑ x : Fin 16 × Fin 2, R ⟨2 * x.1.val + x.2.val, by omega⟩ = ∑ b : Fin 32, R b :=
    Fintype.sum_equiv (finProdFinEquiv : Fin 16 × Fin 2 ≃ Fin 32) _ _ (fun x => congrArg R (Fin.ext (by
      show 2 * x.1.val + x.2.val = x.2.val + 2 * x.1.val
      omega)))
  have h32 : ∑ b : Fin 32, R b = ∑ t : Fin 16, u t := by
    rw [← e, Fintype.sum_prod_type]
    exact Finset.sum_congr rfl (fun t _ => (hu t).symm)
  rw [h32, h16]
  simp only [zero_add]

end Cert.Loss
-- ==== Proof.KerValue.lean ====
/-
  The kernel's three results as the shared closed form of the four totals over the whole arrays.

  Column k of the two accumulator blocks, added from zero by the host, is the sum over the 16 grid points of the
  points' k-th partial sums, each a sum over the point's two images; the 32 images are each covered once. The host
  operations after the call are the shared tail of the four totals.
-/
import proofs.«131724_j10642928959652_2_alg».proof.Proof.KerChain
import proofs.«131724_j10642928959652_2_alg».proof.Proof.KerBlocks
import proofs.«131724_j10642928959652_2_alg».proof.Proof.KerSumA
import proofs.«131724_j10642928959652_2_alg».proof.Proof.KerTail
import proofs.«131724_j10642928959652_2_alg».proof.Proof.BlockSum

noncomputable section

open Idealize.ShloMosaic Idealize.ShloMosaic.TcCoe Idealize.SL.Sem Idealize.ShloMosaic.ValueIdx

namespace Cert.KernelIdeal.KValue

open Cert.KernelIdeal Cert.KernelIdeal.Gen Cert.Loss

variable (m : (ℓ : Loc nD τ sig) → Buf (Elt Ideal) ℓ) (ρ : Dev nD → PrngReg)

theorem inBlk_cell (g : Fin 2) (k : Fin 4) : inBlk (ix3 g (0 : Fin 8) (⟨k.val, by omega⟩ : Fin 128)) = cell k := by
  funext a
  match a with
  | ⟨0, _⟩ => rfl
  | ⟨1, _⟩ => rfl
  | ⟨2, _⟩ => rfl

theorem finalOut0 (c : Dev nD) (k : Fin 4) :
    finalOut m c (ix3 (0 : Fin 2) (0 : Fin 8) (⟨k.val, by omega⟩ : Fin 128)) = outsAt0 m c 7 (lt_N 7 (by decide)) (cell k) := by
  unfold finalOut
  exact (if_pos rfl).trans (congrArg _ (inBlk_cell 0 k))

theorem finalOut1 (c : Dev nD) (k : Fin 4) :
    finalOut m c (ix3 (1 : Fin 2) (0 : Fin 8) (⟨k.val, by omega⟩ : Fin 128)) = outsAt0 m c 15 (lt_N 15 (by decide)) (cell k) := by
  unfold finalOut
  exact (if_neg Nat.one_ne_zero).trans (congrArg _ (inBlk_cell 1 k))

theorem imgIx_eq (t : Fin 16) (j : Fin 2) : imgIx ⟨t.val, lt_N t.val t.isLt⟩ j = (⟨2 * t.val + j.val, by omega⟩ : Fin 32) := rfl

theorem pick0 (a b c d : EReal) : ![a, b, c, d] 0 = a := rfl
theorem pick1 (a b c d : EReal) : ![a, b, c, d] 1 = b := rfl
theorem pick2 (a b c d : EReal) : ![a, b, c, d] 2 = c := rfl
theorem pick3 (a b c d : EReal) : ![a, b, c, d] 3 = d := rfl

theorem q0 (c : Dev nD) (t : Fin cfg0.N) : q m c 0 t = sumA (F := Ideal) (iblk m c 0 t) (iblk m c 1 t) := by
  unfold q
  exact pick0 _ _ _ _

theorem q1 (c : Dev nD) (t : Fin cfg0.N) :
    q m c 1 t = totB (iblk m c 0 t : Vec Ideal S2x1x512x512 .f32) (iblk m c 1 t : Vec Ideal S2x1x512x512 .i32) := by
  unfold q
  exact pick1 _ _ _ _

theorem q2 (c : Dev nD) (t : Fin cfg0.N) : q m c 2 t = totC (iblk m c 0 t : Vec Ideal S2x1x512x512 .f32) := by
  unfold q
  exact pick2 _ _ _ _

theorem q3 (c : Dev nD) (t : Fin cfg0.N) : q m c 3 t = totD (iblk m c 1 t : Vec Ideal S2x1x512x512 .i32) := by
  unfold q
  exact pick3 _ _ _ _

/-- Point t's partial sums are the sums over its two images, 2t and 2t + 1. -/
theorem hu0 (c : Dev nD) (t : Fin 16) : q m c 0 ⟨t.val, lt_N t.val t.isLt⟩
    = ∑ j : Fin 2, (fun b : Fin 32 => (∑ h : Fin 512, ∑ w : Fin 512, elemOne ((m ((c : Thread nD τ).loc main_arg0) : S32x1x512x512.Idx → EReal) (ix4 b (0 : Fin 1) h w)) (timg (m ((c : Thread nD τ).loc main_arg1) : S32x1x512x512.Idx → BitVec 32) b) h.val w.val : EReal)) ⟨2 * t.val + j.val, by omega⟩ := by
  rw [q0, sumA_eq, pointA]
  rfl

theorem hu1 (c : Dev nD) (t : Fin 16) : q m c 1 ⟨t.val, lt_N t.val t.isLt⟩
    = ∑ j : Fin 2, (fun b : Fin 32 => (∑ h : Fin 512, ∑ w : Fin 512, @HMul.hMul EReal EReal EReal instHMul ((m ((c : Thread nD τ).loc main_arg0) : S32x1x512x512.Idx → EReal) (ix4 b (0 : Fin 1) h w)) (timg (m ((c : Thread nD τ).loc main_arg1) : S32x1x512x512.Idx → BitVec 32) b h.val w.val) : EReal)) ⟨2 * t.val + j.val, by omega⟩ := by
  rw [q1, pointB]
  rfl

theorem hu2 (c : Dev nD) (t : Fin 16) : q m c 2 ⟨t.val, lt_N t.val t.isLt⟩
    = ∑ j : Fin 2, (fun b : Fin 32 => (∑ h : Fin 512, ∑ w : Fin 512, ((m ((c : Thread nD τ).loc main_arg0) : S32x1x512x512.Idx → EReal) (ix4 b (0 : Fin 1) h w) : EReal) : EReal)) ⟨2 * t.val + j.val, by omega⟩ := by
  rw [q2, pointC]
  rfl

theorem hu3 (c : Dev nD) (t : Fin 16) : q m c 3 ⟨t.val, lt_N t.val t.isLt⟩
    = ∑ j : Fin 2, (fun b : Fin 32 => (∑ h : Fin 512, ∑ w : Fin 512, timg (m ((c : Thread nD τ).loc main_arg1) : S32x1x512x512.Idx → BitVec 32) b h.val w.val : EReal)) ⟨2 * t.val + j.val, by omega⟩ := by
  rw [q3, pointD]
  rfl

/-- Column 0: the weighted cross-entropy over the whole arrays. -/
theorem colSum0 (c : Dev nD) : colSum (finalOut m c) 0 = totA elemOne (m ((c : Thread nD τ).loc main_arg0) : S32x1x512x512.Idx → EReal) (m ((c : Thread nD τ).loc main_arg1) : S32x1x512x512.Idx → BitVec 32) := by
  unfold colSum
  rw [finalOut0, finalOut1, acc7, acc15]
  exact (blocks_total (M := EReal) (fun b : Fin 32 => (∑ h : Fin 512, ∑ w : Fin 512, elemOne ((m ((c : Thread nD τ).loc main_arg0) : S32x1x512x512.Idx → EReal) (ix4 b (0 : Fin 1) h w)) (timg (m ((c : Thread nD τ).loc main_arg1) : S32x1x512x512.Idx → BitVec 32) b) h.val w.val : EReal))
    (fun t : Fin 16 => q m c 0 ⟨t.val, lt_N t.val t.isLt⟩) (hu0 m c)).trans rfl

/-- Column 1: prediction times target. -/
theorem colSum1 (c : Dev nD) : colSum (finalOut m c) 1 = totB (m ((c : Thread nD τ).loc main_arg0) : S32x1x512x512.Idx → EReal) (m ((c : Thread nD τ).loc main_arg1) : S32x1x512x512.Idx → BitVec 32) := by
  unfold colSum
  rw [finalOut0, finalOut1, acc7, acc15]
  exact (blocks_total (M := EReal) (fun b : Fin 32 => (∑ h : Fin 512, ∑ w : Fin 512, @HMul.hMul EReal EReal EReal instHMul ((m ((c : Thread nD τ).loc main_arg0) : S32x1x512x512.Idx → EReal) (ix4 b (0 : Fin 1) h w)) (timg (m ((c : Thread nD τ).loc main_arg1) : S32x1x512x512.Idx → BitVec 32) b h.val w.val) : EReal))
    (fun t : Fin 16 => q m c 1 ⟨t.val, lt_N t.val t.isLt⟩) (hu1 m c)).trans rfl

/-- Column 2: the prediction. -/
theorem colSum2 (c : Dev nD) : colSum (finalOut m c) 2 = totC (m ((c : Thread nD τ).loc main_arg0) : S32x1x512x512.Idx → EReal) := by
  unfold colSum
  rw [finalOut0, finalOut1, acc7, acc15]
  exact (blocks_total (M := EReal) (fun b : Fin 32 => (∑ h : Fin 512, ∑ w : Fin 512, ((m ((c : Thread nD τ).loc main_arg0) : S32x1x512x512.Idx → EReal) (ix4 b (0 : Fin 1) h w) : EReal) : EReal))
    (fun t : Fin 16 => q m c 2 ⟨t.val, lt_N t.val t.isLt⟩) (hu2 m c)).trans rfl

/-- Column 3: the target. -/
theorem colSum3 (c : Dev nD) : colSum (finalOut m c) 3 = totD (m ((c : Thread nD τ).loc main_arg1) : S32x1x512x512.Idx → BitVec 32) := by
  unfold colSum
  rw [finalOut0, finalOut1, acc7, acc15]
  exact (blocks_total (M := EReal) (fun b : Fin 32 => (∑ h : Fin 512, ∑ w : Fin 512, timg (m ((c : Thread nD τ).loc main_arg1) : S32x1x512x512.Idx → BitVec 32) b h.val w.val : EReal))
    (fun t : Fin 16 => q m c 3 ⟨t.val, lt_N t.val t.isLt⟩) (hu3 m c)).trans rfl

theorem mem_rest (b : Ref sig .tc) (hs : b.isScoped = false) (ha : ∀ w, ((cfgs 0).spec w).arr.view.ref ≠ b) :
    b ∈ Pipeline.restRefs sig (cfgs 0).spec := Pipeline.mem_restRefs_of b hs ha

/-- The run, read: the three results at the shared tail of the four totals over the whole arrays, the arguments unchanged. -/
theorem run : θ_run defs (onTc (τ := τ) (main (F := Ideal))) ⟨m, fun _ => 0, ρ⟩ fun r => ∀ c : Dev nD,
      r.2.mem ((c : Thread nD τ).loc main_v21) = (fun _ => (tail3 (totA elemOne (m ((c : Thread nD τ).loc main_arg0) : S32x1x512x512.Idx → EReal) (m ((c : Thread nD τ).loc main_arg1) : S32x1x512x512.Idx → BitVec 32)) (totB (m ((c : Thread nD τ).loc main_arg0) : S32x1x512x512.Idx → EReal) (m ((c : Thread nD τ).loc main_arg1) : S32x1x512x512.Idx → BitVec 32)) (totC (m ((c : Thread nD τ).loc main_arg0) : S32x1x512x512.Idx → EReal)) (totD (m ((c : Thread nD τ).loc main_arg1) : S32x1x512x512.Idx → BitVec 32))).1)
      ∧ r.2.mem ((c : Thread nD τ).loc main_v12) = (fun _ => (tail3 (totA elemOne (m ((c : Thread nD τ).loc main_arg0) : S32x1x512x512.Idx → EReal) (m ((c : Thread nD τ).loc main_arg1) : S32x1x512x512.Idx → BitVec 32)) (totB (m ((c : Thread nD τ).loc main_arg0) : S32x1x512x512.Idx → EReal) (m ((c : Thread nD τ).loc main_arg1) : S32x1x512x512.Idx → BitVec 32)) (totC (m ((c : Thread nD τ).loc main_arg0) : S32x1x512x512.Idx → EReal)) (totD (m ((c : Thread nD τ).loc main_arg1) : S32x1x512x512.Idx → BitVec 32))).2.1)
      ∧ r.2.mem ((c : Thread nD τ).loc main_v18) = (fun _ => (tail3 (totA elemOne (m ((c : Thread nD τ).loc main_arg0) : S32x1x512x512.Idx → EReal) (m ((c : Thread nD τ).loc main_arg1) : S32x1x512x512.Idx → BitVec 32)) (totB (m ((c : Thread nD τ).loc main_arg0) : S32x1x512x512.Idx → EReal) (m ((c : Thread nD τ).loc main_arg1) : S32x1x512x512.Idx → BitVec 32)) (totC (m ((c : Thread nD τ).loc main_arg0) : S32x1x512x512.Idx → EReal)) (totD (m ((c : Thread nD τ).loc main_arg1) : S32x1x512x512.Idx → BitVec 32))).2.2)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨t21, t12, t18⟩ := tail_results m c (finalOut m c) (final_arr m c)
    rw [colSum0, colSum1, colSum2, colSum3] at t21 t12 t18
    exact ⟨((h c).2 main_v21 (mem_rest main_v21 rfl (by decide))).trans t21,
      ((h c).2 main_v12 (mem_rest main_v12 rfl (by decide))).trans t12,
      ((h c).2 main_v18 (mem_rest main_v18 rfl (by decide))).trans t18,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.Lits.lean ====
/-
  The seven 32-bit words the loss uses as constants, read as extended reals.

  A 32-bit pattern with sign s, exponent field E and fraction field T denotes (−1)^s · (2²³ + T) · 2^(E − 150)
  for 0 < E < 255, zero for E = T = 0, and ±∞ for E = 255, T = 0. So
    0x00000000 = 0,   0x3F800000 = 2²³ · 2⁻²³ = 1,   0x3F000000 = 2²³ · 2⁻²⁴ = ½,
    0xFF800000 = −∞,  0x7F800000 = +∞,
    0x4E6E6B28 = 15625000 · 2⁶ = 10⁹,   0xCE6E6B28 = −10⁹.
-/
import proofs.«131724_j10642928959652_2_alg».proof.Proof.Spec

namespace Cert.Loss

open Idealize.ShloMosaic

theorem lit_zero : Ideal.ofBits .f32 0x00000000#32 = 0 := by
  simp [Ideal.ofBits, Ideal.ieee]

theorem lit_one : Ideal.ofBits .f32 0x3F800000#32 = 1 := by
  simp [Ideal.ofBits, Ideal.ieee]
  rw [← EReal.coe_mul, ← EReal.coe_one]
  congr 1
  norm_num

theorem lit_half : Ideal.ofBits .f32 0x3F000000#32 = ((1/2 : ℝ) : EReal) := by
  simp [Ideal.ofBits, Ideal.ieee]
  rw [← EReal.coe_mul]
  congr 1
  norm_num

theorem lit_negInf : Ideal.ofBits .f32 0xFF800000#32 = ⊥ := by
  simp [Ideal.ofBits, Ideal.ieee]

theorem lit_posInf : Ideal.ofBits .f32 0x7F800000#32 = ⊤ := by
  simp [Ideal.ofBits, Ideal.ieee]

theorem lit_negBig : Ideal.ofBits .f32 0xCE6E6B28#32 = ((-1000000000 : ℝ) : EReal) := by
  simp [Ideal.ofBits, Ideal.ieee]
  first
    | (norm_cast; done)
    | (rw [← EReal.coe_pow, ← EReal.coe_mul]; norm_num; done)
    | (rw [← EReal.coe_pow, ← EReal.coe_mul, ← EReal.coe_neg]; congr 1; norm_num; done)
    | (norm_num [← EReal.coe_pow, ← EReal.coe_mul, ← EReal.coe_neg]; done)

theorem lit_posBig : Ideal.ofBits .f32 0x4E6E6B28#32 = ((1000000000 : ℝ) : EReal) := by
  simp [Ideal.ofBits, Ideal.ieee]
  first
    | (norm_cast; done)
    | (rw [← EReal.coe_pow, ← EReal.coe_mul]; congr 1; norm_num; done)
    | (norm_num [← EReal.coe_pow, ← EReal.coe_mul]; done)

end Cert.Loss
-- ==== Proof.Pool.lean ====
/-
  The two arrangements of the 3×3 extremum agree, the two cross-entropies agree on 0/1 targets, hence the
  two forms of one element of the loss agree.

  Extremum. Let f be an associative, commutative operation with identity v (max with −∞, min with +∞), and let the
  fill c be absorbed by every entry of the image: f c (x a b) = x a b. Write n(y, k, d) for the entry y (k + d − 1)
  when 0 ≤ k + d − 1 < 512 and v otherwise (the neighbour at offset d − 1, the identity outside the axis).
  One pass at k is f (f L R) (y k) with L = c at k = 0, else y (k − 1) (since (k + 512 − 1) mod 512 = k − 1 for
  1 ≤ k < 512), and R = c at k = 511, else y (k + 1); as f (f c b) a = f b (f c a) = f b a when the centre absorbs c,
  the pass equals f (f n(y,k,0) n(y,k,2)) n(y,k,1). The pass along a row absorbs c again (its centre does), so the
  second pass has the same form, over the row results; a guarded row result is f of the three doubly guarded
  entries (outside the image all three are v and f (f v v) v = v). Both arrangements are thus f over the same nine
  doubly guarded entries, in different orders, and f is associative and commutative.

  Cross-entropy. At t = 0:  0 − log(1 − q) = −(0·log q + (1 − 0)·log(1 + (−q)));  at t = 1:  0 − log q
  = −(1·log q + (1 − 1)·log(1 + (−q))). No finiteness of q is used: in the extended reals 0·a = 0, 1·a = a,
  0 + a = a, 0 − a = −a, 1 − a = 1 + (−a), 1 − 1 = 0.

  Element. A target entry is 0 or 1, so −10⁹ ≤ it ≤ 10⁹: the fills are absorbed.
-/
import proofs.«131724_j10642928959652_2_alg».proof.Proof.Lits

noncomputable section

namespace Cert.Loss

open Idealize.ShloMosaic

/-- The entry of y at k + d − 1 where that lies in [0, 512), else v. -/
def nb (v : EReal) (y : ℕ → EReal) (k d : ℕ) : EReal :=
  if 1 ≤ k + d ∧ k + d - 1 < 512 then y (k + d - 1) else v

/-- The doubly guarded entry of the image x at (h + d − 1, w + dw − 1). -/
def nb2 (v : EReal) (x : ℕ → ℕ → EReal) (h w d dw : ℕ) : EReal :=
  nb v (fun a => nb v (x a) w dw) h d

theorem nb_one (v : EReal) (y : ℕ → EReal) (k : ℕ) (hk : k < 512) : nb v y k 1 = y k := by
  unfold nb
  have H : 1 ≤ k + 1 ∧ k + 1 - 1 < 512 := ⟨by omega, by omega⟩
  rw [if_pos H, Nat.add_sub_cancel]

theorem nb_congr (v : EReal) (y y' : ℕ → EReal) (k d : ℕ) (hy : ∀ j, j < 512 → y j = y' j) :
    nb v y k d = nb v y' k d := by
  unfold nb
  by_cases H : 1 ≤ k + d ∧ k + d - 1 < 512
  · rw [if_pos H, if_pos H, hy _ H.2]
  · rw [if_neg H, if_neg H]

theorem ite_and4 {α : Type} (P Q R S : Prop) [Decidable P] [Decidable Q] [Decidable R] [Decidable S] (a b : α) :
    (if P ∧ Q ∧ R ∧ S then a else b) = if P ∧ Q then (if R ∧ S then a else b) else b := by
  by_cases hP : P <;> by_cases hQ : Q <;> simp [hP, hQ]

section generic

variable (f : EReal → EReal → EReal) [Std.Associative f] [Std.Commutative f]

theorem nb_f3 (v : EReal) (hv : ∀ a, f v a = a) (p q r : ℕ → EReal) (k d : ℕ) :
    nb v (fun a => f (f (p a) (q a)) (r a)) k d = f (f (nb v p k d) (nb v q k d)) (nb v r k d) := by
  unfold nb
  by_cases H : 1 ≤ k + d ∧ k + d - 1 < 512
  · simp only [if_pos H]
  · simp only [if_neg H, hv]

/-- One pass, the fill absorbed by the centre, is f over the three guarded neighbours. -/
theorem pass1_eq (v c : EReal) (hv : ∀ a, f v a = a) (y : ℕ → EReal) (k : ℕ) (hk : k < 512)
    (hc : f c (y k) = y k) : pass1 f c y k = f (f (nb v y k 0) (nb v y k 2)) (nb v y k 1) := by
  rw [nb_one v y k hk]
  have h3 : k = 0 ∨ k = 511 ∨ (1 ≤ k ∧ k ≤ 510) := by omega
  rcases h3 with rfl | rfl | ⟨h1, h2⟩
  · have e0 : nb v y 0 0 = v := by simp [nb]
    have e2 : nb v y 0 2 = y 1 := by simp [nb]
    have eL : pass1 f c y 0 = f (f c (y 1)) (y 0) := by simp [pass1]
    rw [e0, e2, eL, hv]
    calc f (f c (y 1)) (y 0) = f (y 1) (f c (y 0)) := by ac_rfl
      _ = f (y 1) (y 0) := by rw [hc]
  · have e0 : nb v y 511 0 = y 510 := by simp [nb]
    have e2 : nb v y 511 2 = v := by simp [nb]
    have eL : pass1 f c y 511 = f (f (y 510) c) (y 511) := by simp [pass1]
    rw [e0, e2, eL]
    calc f (f (y 510) c) (y 511) = f (y 510) (f c (y 511)) := by ac_rfl
      _ = f (y 510) (y 511) := by rw [hc]
      _ = f (f v (y 510)) (y 511) := by rw [hv]
      _ = f (f (y 510) v) (y 511) := by ac_rfl
  · have H0 : 1 ≤ k + 0 ∧ k + 0 - 1 < 512 := ⟨by omega, by omega⟩
    have H2 : 1 ≤ k + 2 ∧ k + 2 - 1 < 512 := ⟨by omega, by omega⟩
    have e0 : nb v y k 0 = y (k - 1) := by
      unfold nb; rw [if_pos H0, show k + 0 - 1 = k - 1 from by omega]
    have e2 : nb v y k 2 = y (k + 1) := by
      unfold nb; rw [if_pos H2, show k + 2 - 1 = k + 1 from by omega]
    have eL : pass1 f c y k = f (f (y (k - 1)) (y (k + 1))) (y k) := by
      unfold pass1
      rw [if_neg (show ¬ k = 0 by omega), if_neg (show ¬ k = 511 by omega),
        show (k + 512 - 1) % 512 = k - 1 from by omega, show (k + 512 - 511) % 512 = k + 1 from by omega]
    rw [e0, e2, eL]

/-- The row-major fold from the identity is f over the nine doubly guarded entries. -/
theorem fold9_eq (v : EReal) (x : ℕ → ℕ → EReal) (h w : ℕ) :
    fold9 f v x h w = f (f (f (f (f (f (f (f (f v (nb2 v x h w 0 0)) (nb2 v x h w 0 1)) (nb2 v x h w 0 2))
      (nb2 v x h w 1 0)) (nb2 v x h w 1 1)) (nb2 v x h w 1 2)) (nb2 v x h w 2 0)) (nb2 v x h w 2 1)) (nb2 v x h w 2 2) := by
  simp only [fold9, nb2, nb, ite_and4]

/-- The two arrangements agree for an associative, commutative f with identity v and an absorbed fill c. -/
theorem sep9_eq_fold9 (v c : EReal) (hv : ∀ a, f v a = a) (x : ℕ → ℕ → EReal)
    (hc : ∀ a b, a < 512 → b < 512 → f c (x a b) = x a b) (h w : ℕ) (hh : h < 512) (hw : w < 512) :
    sep9 f c x h w = fold9 f v x h w := by
  have hrow : ∀ j, j < 512 → pass1 f c (fun ww => x j ww) w
      = f (f (nb v (x j) w 0) (nb v (x j) w 2)) (nb v (x j) w 1) :=
    fun j hj => pass1_eq f v c hv (fun ww => x j ww) w hw (hc j w hj hw)
  have hfix : f c (pass1 f c (fun ww => x h ww) w) = pass1 f c (fun ww => x h ww) w := by
    rw [hrow h hh, nb_one v (x h) w hw]
    calc f c (f (f (nb v (x h) w 0) (nb v (x h) w 2)) (x h w))
        = f (f (nb v (x h) w 0) (nb v (x h) w 2)) (f c (x h w)) := by ac_rfl
      _ = f (f (nb v (x h) w 0) (nb v (x h) w 2)) (x h w) := by rw [hc h w hh hw]
  have hA : ∀ j, j < 512 → (fun a => pass1 f c (fun ww => x a ww) w) j
      = (fun a => f (f (nb v (x a) w 0) (nb v (x a) w 2)) (nb v (x a) w 1)) j := fun j hj => hrow j hj
  unfold sep9
  rw [pass1_eq f v c hv (fun a => pass1 f c (fun ww => x a ww) w) h hh hfix,
    nb_congr v _ _ h 0 hA, nb_congr v _ _ h 2 hA, nb_congr v _ _ h 1 hA,
    nb_f3 f v hv, nb_f3 f v hv, nb_f3 f v hv, fold9_eq f v x h w, hv]
  unfold nb2
  ac_rfl

end generic

theorem sep9_max_eq_fold9 (c : EReal) (x : ℕ → ℕ → EReal) (hc : ∀ a b, a < 512 → b < 512 → c ≤ x a b)
    (h w : ℕ) (hh : h < 512) (hw : w < 512) : sep9 max c x h w = fold9 max ⊥ x h w :=
  sep9_eq_fold9 max ⊥ c (fun _ => max_eq_right bot_le) x (fun a b ha hb => max_eq_right (hc a b ha hb)) h w hh hw

theorem sep9_min_eq_fold9 (c : EReal) (x : ℕ → ℕ → EReal) (hc : ∀ a b, a < 512 → b < 512 → x a b ≤ c)
    (h w : ℕ) (hh : h < 512) (hw : w < 512) : sep9 min c x h w = fold9 min ⊤ x h w :=
  sep9_eq_fold9 min ⊤ c (fun _ => min_eq_right le_top) x (fun a b ha hb => min_eq_right (hc a b ha hb)) h w hh hw

theorem bceOne_eq_bceTwo (p t : EReal) (ht : t = 0 ∨ t = 1) : bceOne p t = bceTwo p t := by
  unfold bceOne bceTwo Ideal.log1p
  rw [lit_zero, lit_half, lit_one]
  rcases ht with rfl | rfl
  · have h : ¬ (((1/2 : ℝ) : EReal) < 0) := by
      rw [not_lt, ← EReal.coe_zero, EReal.coe_le_coe_iff]; norm_num
    rw [if_neg h, zero_mul, zero_add, sub_zero, one_mul, zero_sub, sub_eq_add_neg]
  · have h : ((1/2 : ℝ) : EReal) < 1 := by
      rw [← EReal.coe_one, EReal.coe_lt_coe_iff]; norm_num
    have h11 : (1 : EReal) - 1 = 0 := by
      rw [← EReal.coe_one, ← EReal.coe_sub, sub_self, EReal.coe_zero]
    rw [if_pos h, one_mul, h11, zero_mul, add_zero, zero_sub]

theorem elemOne_eq_elemTwo (p : EReal) (T : ℕ → ℕ → EReal) (hT : ∀ a b, a < 512 → b < 512 → T a b = 0 ∨ T a b = 1)
    (h w : ℕ) (hh : h < 512) (hw : w < 512) : elemOne p T h w = elemTwo p T h w := by
  have lo : ∀ a b, a < 512 → b < 512 → Ideal.ofBits .f32 0xCE6E6B28#32 ≤ T a b := by
    intro a b ha hb
    rw [lit_negBig]
    rcases hT a b ha hb with e | e <;> rw [e]
    · rw [← EReal.coe_zero, EReal.coe_le_coe_iff]; norm_num
    · rw [← EReal.coe_one, EReal.coe_le_coe_iff]; norm_num
  have hi : ∀ a b, a < 512 → b < 512 → T a b ≤ Ideal.ofBits .f32 0x4E6E6B28#32 := by
    intro a b ha hb
    rw [lit_posBig]
    rcases hT a b ha hb with e | e <;> rw [e]
    · rw [← EReal.coe_zero, EReal.coe_le_coe_iff]; norm_num
    · rw [← EReal.coe_one, EReal.coe_le_coe_iff]; norm_num
  unfold elemOne elemTwo
  rw [bceOne_eq_bceTwo p (T h w) (hT h w hh hw), lit_negInf, lit_posInf,
    sep9_max_eq_fold9 _ T lo h w hh hw, sep9_min_eq_fold9 _ T hi h w hh hw]

end Cert.Loss

end
-- ==== Proof.Bridge.lean ====
/-
  On a target array whose entries are the words 0 and 1 the two arrangements of the weighted cross-entropy total agree.

  Each image of such an array reads 0 or 1 at every position; there the fills of the separable window passes never
  beat an entry and the one-logarithm cross-entropy is the two-logarithm one, so the totals agree term by term.
-/
import proofs.«131724_j10642928959652_2_alg».proof.Proof.Pool
import proofs.«131724_j10642928959652_2_alg».proof.Proof.Images

noncomputable section

namespace Cert.Loss

open Idealize.ShloMosaic Idealize.ShloMosaic.ValueIdx

theorem timg_binary {B : ℕ} (x1 : (⟨4, ![B, 1, 512, 512]⟩ : Shape).Idx → BitVec 32) (hbin : ∀ i, x1 i = 0#32 ∨ x1 i = 1#32) (b : Fin B)
    (hh ww : ℕ) (h1 : hh < 512) (h2 : ww < 512) : timg x1 b hh ww = 0 ∨ timg x1 b hh ww = 1 := by
  unfold timg
  rw [dif_pos ⟨h1, h2⟩]
  rcases hbin (ix4 b (0 : Fin 1) (⟨hh, h1⟩ : Fin 512) (⟨ww, h2⟩ : Fin 512)) with e | e
  · left; rw [e]; simp
  · right; rw [e]; simp

theorem totA_one_eq_two {B : ℕ} (x0 : (⟨4, ![B, 1, 512, 512]⟩ : Shape).Idx → EReal) (x1 : (⟨4, ![B, 1, 512, 512]⟩ : Shape).Idx → BitVec 32)
    (hbin : ∀ i, x1 i = 0#32 ∨ x1 i = 1#32) : totA elemOne x0 x1 = totA elemTwo x0 x1 := by
  unfold totA
  refine Finset.sum_congr rfl fun b _ => Finset.sum_congr rfl fun h _ => Finset.sum_congr rfl fun w _ => ?_
  exact elemOne_eq_elemTwo _ _ (fun a b' ha hb => timg_binary x1 hbin b a b' ha hb) h.val w.val h.isLt w.isLt

end Cert.Loss

end
-- ==== Proof.PreDecode.lean ====
/-
  The precondition read back: every entry of the target array is 0 or 1.

  The precondition is the conjunction of two reductions by "and" over the whole arrays; its second conjunct reduces the
  array of the comparisons (target = 0) or (target = 1). A reduction by "and" that is one had a one at every index,
  and a comparison for equality that is one says the two words are equal.
-/
import proofs.«131724_j10642928959652_2_alg».proof.Proof.Gen.Pre_finite_inputs
import Idealize.ShloMosaic.Lib.ReduceAll
import Idealize.ShloMosaic.Lib.ValueIdx
import Idealize.ShloMosaic.Lib.Pipeline.Value

noncomputable section

namespace Cert.Loss

open Idealize.ShloMosaic Idealize.ShloMosaic.ValueIdx Cert.Pre_finite_inputs

instance : Subsingleton S_.Idx := ⟨fun a b => funext fun d => d.elim0⟩

/-- Under the precondition every target entry is the word 0 or the word 1. -/
theorem target_binary {F : FTy → Type} [FloatOps F] (a0 : FVec F S32x1x512x512 .f32) (a1 : IVec S32x1x512x512 32)
    (h : Cert.Pre_finite_inputs.fn (F := F) a0 a1 = fun _ => 1#1) (i : S32x1x512x512.Idx) : a1 i = 0#32 ∨ a1 i = 1#32 := by
  have h0 := congrFun h ix0
  dsimp only [Cert.Pre_finite_inputs.fn] at h0
  obtain ⟨-, h2⟩ := IntOp.andi_eq_one.1 h0
  have h3 := Host.reduce_andi_all _ _ _ _ _ h2 i
  rcases IntOp.ori_eq_one.1 h3 with h4 | h4
  · left
    have := IntOp.cmpi_eq.1 h4
    rw [this]
    exact broadcastInDim_apply _ _ _ i ix0 (fun a => a.elim0)
  · right
    have := IntOp.cmpi_eq.1 h4
    rw [this]
    exact broadcastInDim_apply _ _ _ i ix0 (fun a => a.elim0)

end Cert.Loss

end
-- ==== Proof.lean ====
/-
  The certificate: a boundary-weighted binary cross-entropy plus Dice loss over pred f32[32, 1, 512, 512] and a 0/1 target
  i32[32, 1, 512, 512], computed by a kernel over a grid of 2 × 8 points (two images a point, four running sums kept in
  an accumulator block per group of eight points, the two groups added and the three scalars formed on the host) and by a
  whole-array reference, equal as extended reals.

  Both programs reduce to one closed form of four totals over the 32 × 512 × 512 elements: the weighted cross-entropy,
  prediction times target, the prediction and the target. The kernel's per-element term takes the 3 × 3 window extrema by
  two passes with finite fills and one logarithm; the reference's folds the nine window positions from the infinities and
  takes two logarithms; on a target of zeros and ones (the precondition) the two terms agree. The kernel's totals are
  those of the whole arrays because the 16 points' blocks cover the 32 images once each. Sums of extended reals commute and
  associate, so no finiteness of the predictions is used.

  The three frames: the two kernels' are the frame runs over their launch; the reference's is its run with the results dropped.
  The idealization rewrote nothing.
-/
import proofs.«131724_j10642928959652_2_alg».proof.Defs
import proofs.«131724_j10642928959652_2_alg».proof.Proof.Gen.Kernel
import proofs.«131724_j10642928959652_2_alg».proof.Proof.Gen.Kernel.Skeleton
import proofs.«131724_j10642928959652_2_alg».proof.Proof.Gen.Kernel.Launch
import proofs.«131724_j10642928959652_2_alg».proof.Proof.Gen.Kernel.Points
import proofs.«131724_j10642928959652_2_alg».proof.Proof.Gen.Kernel.Frame
import proofs.«131724_j10642928959652_2_alg».proof.Proof.Gen.KernelIdeal
import proofs.«131724_j10642928959652_2_alg».proof.Proof.Gen.KernelIdeal.Skeleton
import proofs.«131724_j10642928959652_2_alg».proof.Proof.Gen.KernelIdeal.Launch
import proofs.«131724_j10642928959652_2_alg».proof.Proof.Gen.KernelIdeal.Points
import proofs.«131724_j10642928959652_2_alg».proof.Proof.Gen.KernelIdeal.Frame
import proofs.«131724_j10642928959652_2_alg».proof.Proof.Gen.ReferenceIdeal
import proofs.«131724_j10642928959652_2_alg».proof.Proof.Gen.Pre_finite_inputs
import proofs.«131724_j10642928959652_2_alg».proof.Proof.RefValue
import proofs.«131724_j10642928959652_2_alg».proof.Proof.KerValue
import proofs.«131724_j10642928959652_2_alg».proof.Proof.Bridge
import proofs.«131724_j10642928959652_2_alg».proof.Proof.PreDecode
import Idealize.ShloMosaic.Adequacy
import Idealize.ShloMosaic.Init

noncomputable section

namespace Cert.Proof

open Idealize.ShloMosaic Idealize.ShloMosaic.TcCoe Idealize.SL.Sem Cert.Loss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.RefValue.run m ρ)

/-- The kernel's results (the shared tail of the four totals, one-logarithm arrangement) are the reference's (the same
    tail, two-logarithm arrangement) on arguments that agree and a target of zeros and ones. -/
theorem algebraic : Cert.algebraic_KernelIdeal_ReferenceIdeal := by
  intro m ρ m' ρ' hpre hagree
  refine ⟨_, _, _, Cert.KernelIdeal.KValue.run m ρ, ?_⟩
  refine (θ_run Cert.ReferenceIdeal.defs _ _).mono (fun _ h c => ?_) (Cert.ReferenceIdeal.RefValue.run m' ρ')
  obtain ⟨h37, h22, h34, ha0, ha1⟩ := h c
  have hbin := Cert.Loss.target_binary (F := Ideal) _ _ (hpre c)
  have hsw := Cert.Loss.totA_one_eq_two (B := 32) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) hbin
  refine ⟨h37.trans ?_, h22.trans ?_, h34.trans ?_, ha0, ha1⟩
  · rw [(hagree c).1, (hagree c).2, hsw]
    rfl
  · rw [(hagree c).1, (hagree c).2, hsw]
    rfl
  · rw [(hagree c).1, (hagree c).2, hsw]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
